-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x784 : Shape := ⟨2, ![32768, 784]⟩
abbrev S39x784 : Shape := ⟨2, ![39, 784]⟩
abbrev S26x39 : Shape := ⟨2, ![26, 39]⟩
abbrev S26 : Shape := ⟨1, ![26]⟩
abbrev S10x26 : Shape := ⟨2, ![10, 26]⟩
abbrev S10x10 : Shape := ⟨2, ![10, 10]⟩
abbrev S10 : Shape := ⟨1, ![10]⟩
abbrev S_ : Shape := ⟨0, ![]⟩

class Facts : Prop where
  bcast_S_S32768x784 : S_.BroadcastsInDim S32768x784 (![] : Fin 0 → Fin S32768x784.rank)
  reducesTo_S32768x784_S_d0_1 : S32768x784.ReducesTo [0, 1] S_
  h_S_ : 0 < S_.numel
  bcast_S_S39x784 : S_.BroadcastsInDim S39x784 (![] : Fin 0 → Fin S39x784.rank)
  reducesTo_S39x784_S_d0_1 : S39x784.ReducesTo [0, 1] S_
  bcast_S_S26x39 : S_.BroadcastsInDim S26x39 (![] : Fin 0 → Fin S26x39.rank)
  reducesTo_S26x39_S_d0_1 : S26x39.ReducesTo [0, 1] S_
  bcast_S_S26 : S_.BroadcastsInDim S26 (![] : Fin 0 → Fin S26.rank)
  reducesTo_S26_S_d0 : S26.ReducesTo [0] S_
  bcast_S_S10x26 : S_.BroadcastsInDim S10x26 (![] : Fin 0 → Fin S10x26.rank)
  reducesTo_S10x26_S_d0_1 : S10x26.ReducesTo [0, 1] S_
  bcast_S_S10x10 : S_.BroadcastsInDim S10x10 (![] : Fin 0 → Fin S10x10.rank)
  reducesTo_S10x10_S_d0_1 : S10x10.ReducesTo [0, 1] S_
  bcast_S_S10 : S_.BroadcastsInDim S10 (![] : Fin 0 → Fin S10.rank)
  reducesTo_S10_S_d0 : S10.ReducesTo [0] S_

variable [Facts]

def fn_part2 {F : FTy → Type} [FloatOps F] (main_arg7 : FVec F S10x10 .f32) (main_v33 : IVec S_ 1) : IVec S_ 1 :=
  let main_v34 : FVec F S10x10 .f32 := Host.absf main_arg7
  let main_cst_12 : FVec F S_ .f32 := constant S_ .f32 0x7F800000#32
  let main_v35 : FVec F S10x10 .f32 := broadcastInDim S10x10 ![] bcast_S_S10x10 main_cst_12
  let main_v36 : IVec S10x10 1 := cmpf .olt main_v34 main_v35
  let main_c_13 : IVec S_ 1 := constantI S_ 1 1#1
  let main_v37 : IVec S_ 1 := (fun x v => Host.reduce IntOp.andi x v reducesTo_S10x10_S_d0_1 h_S_) main_v36 main_c_13
  let main_v38 : IVec S_ 1 := andi main_v33 main_v37
  main_v38

def fn_part1 {F : FTy → Type} [FloatOps F] (main_arg4 : FVec F S10x26 .f32) (main_arg5 : FVec F S10x10 .f32) (main_arg6 : FVec F S10 .f32) (main_arg7 : FVec F S10x10 .f32) (main_v13 : IVec S_ 1) (main_v16 : IVec S26 1) : IVec S_ 1 :=
  let main_c_5 : IVec S_ 1 := constantI S_ 1 1#1
  let main_v17 : IVec S_ 1 := (fun x v => Host.reduce IntOp.andi x v reducesTo_S26_S_d0 h_S_) main_v16 main_c_5
  let main_v18 : IVec S_ 1 := andi main_v13 main_v17
  let main_v19 : FVec F S10x26 .f32 := Host.absf main_arg4
  let main_cst_6 : FVec F S_ .f32 := constant S_ .f32 0x7F800000#32
  let main_v20 : FVec F S10x26 .f32 := broadcastInDim S10x26 ![] bcast_S_S10x26 main_cst_6
  let main_v21 : IVec S10x26 1 := cmpf .olt main_v19 main_v20
  let main_c_7 : IVec S_ 1 := constantI S_ 1 1#1
  let main_v22 : IVec S_ 1 := (fun x v => Host.reduce IntOp.andi x v reducesTo_S10x26_S_d0_1 h_S_) main_v21 main_c_7
  let main_v23 : IVec S_ 1 := andi main_v18 main_v22
  let main_v24 : FVec F S10x10 .f32 := Host.absf main_arg5
  let main_cst_8 : FVec F S_ .f32 := constant S_ .f32 0x7F800000#32
  let main_v25 : FVec F S10x10 .f32 := broadcastInDim S10x10 ![] bcast_S_S10x10 main_cst_8
  let main_v26 : IVec S10x10 1 := cmpf .olt main_v24 main_v25
  let main_c_9 : IVec S_ 1 := constantI S_ 1 1#1
  let main_v27 : IVec S_ 1 := (fun x v => Host.reduce IntOp.andi x v reducesTo_S10x10_S_d0_1 h_S_) main_v26 main_c_9
  let main_v28 : IVec S_ 1 := andi main_v23 main_v27
  let main_v29 : FVec F S10 .f32 := Host.absf main_arg6
  let main_cst_10 : FVec F S_ .f32 := constant S_ .f32 0x7F800000#32
  let main_v30 : FVec F S10 .f32 := broadcastInDim S10 ![] bcast_S_S10 main_cst_10
  let main_v31 : IVec S10 1 := cmpf .olt main_v29 main_v30
  let main_c_11 : IVec S_ 1 := constantI S_ 1 1#1
  let main_v32 : IVec S_ 1 := (fun x v => Host.reduce IntOp.andi x v reducesTo_S10_S_d0 h_S_) main_v31 main_c_11
  let main_v33 : IVec S_ 1 := andi main_v28 main_v32
  fn_part2 (F := F) main_arg7 main_v33

def fn {F : FTy → Type} [FloatOps F] (main_arg0 : FVec F S32768x784 .f32) (main_arg1 : FVec F S39x784 .f32) (main_arg2 : FVec F S26x39 .f32) (main_arg3 : FVec F S26 .f32) (main_arg4 : FVec F S10x26 .f32) (main_arg5 : FVec F S10x10 .f32) (main_arg6 : FVec F S10 .f32) (main_arg7 : FVec F S10x10 .f32) : IVec S_ 1 :=
  let main_v0 : FVec F S32768x784 .f32 := Host.absf main_arg0
  let main_cst : FVec F S_ .f32 := constant S_ .f32 0x7F800000#32
  let main_v1 : FVec F S32768x784 .f32 := broadcastInDim S32768x784 ![] bcast_S_S32768x784 main_cst
  let main_v2 : IVec S32768x784 1 := cmpf .olt main_v0 main_v1
  let main_c : IVec S_ 1 := constantI S_ 1 1#1
  let main_v3 : IVec S_ 1 := (fun x v => Host.reduce IntOp.andi x v reducesTo_S32768x784_S_d0_1 h_S_) main_v2 main_c
  let main_v4 : FVec F S39x784 .f32 := Host.absf main_arg1
  let main_cst_0 : FVec F S_ .f32 := constant S_ .f32 0x7F800000#32
  let main_v5 : FVec F S39x784 .f32 := broadcastInDim S39x784 ![] bcast_S_S39x784 main_cst_0
  let main_v6 : IVec S39x784 1 := cmpf .olt main_v4 main_v5
  let main_c_1 : IVec S_ 1 := constantI S_ 1 1#1
  let main_v7 : IVec S_ 1 := (fun x v => Host.reduce IntOp.andi x v reducesTo_S39x784_S_d0_1 h_S_) main_v6 main_c_1
  let main_v8 : IVec S_ 1 := andi main_v3 main_v7
  let main_v9 : FVec F S26x39 .f32 := Host.absf main_arg2
  let main_cst_2 : FVec F S_ .f32 := constant S_ .f32 0x7F800000#32
  let main_v10 : FVec F S26x39 .f32 := broadcastInDim S26x39 ![] bcast_S_S26x39 main_cst_2
  let main_v11 : IVec S26x39 1 := cmpf .olt main_v9 main_v10
  let main_c_3 : IVec S_ 1 := constantI S_ 1 1#1
  let main_v12 : IVec S_ 1 := (fun x v => Host.reduce IntOp.andi x v reducesTo_S26x39_S_d0_1 h_S_) main_v11 main_c_3
  let main_v13 : IVec S_ 1 := andi main_v8 main_v12
  let main_v14 : FVec F S26 .f32 := Host.absf main_arg3
  let main_cst_4 : FVec F S_ .f32 := constant S_ .f32 0x7F800000#32
  let main_v15 : FVec F S26 .f32 := broadcastInDim S26 ![] bcast_S_S26 main_cst_4
  let main_v16 : IVec S26 1 := cmpf .olt main_v14 main_v15
  fn_part1 (F := F) main_arg4 main_arg5 main_arg6 main_arg7 main_v13 main_v16
-- ==== Kernel.lean ====
abbrev S32768x784 : Shape := ⟨2, ![32768, 784]⟩
abbrev S39x784 : Shape := ⟨2, ![39, 784]⟩
abbrev S26x39 : Shape := ⟨2, ![26, 39]⟩
abbrev S26 : Shape := ⟨1, ![26]⟩
abbrev S10x26 : Shape := ⟨2, ![10, 26]⟩
abbrev S10x10 : Shape := ⟨2, ![10, 10]⟩
abbrev S10 : Shape := ⟨1, ![10]⟩
abbrev S1x26 : Shape := ⟨2, ![1, 26]⟩
abbrev S1x10 : Shape := ⟨2, ![1, 10]⟩
abbrev S32768x10 : Shape := ⟨2, ![32768, 10]⟩
abbrev S2048x784 : Shape := ⟨2, ![2048, 784]⟩
abbrev S2048x10 : Shape := ⟨2, ![2048, 10]⟩
abbrev S784x39 : Shape := ⟨2, ![784, 39]⟩
abbrev S2048x39 : Shape := ⟨2, ![2048, 39]⟩
abbrev S39x26 : Shape := ⟨2, ![39, 26]⟩
abbrev S2048x26 : Shape := ⟨2, ![2048, 26]⟩
abbrev S26x10 : Shape := ⟨2, ![26, 10]⟩
abbrev S2048 : Shape := ⟨1, ![2048]⟩
abbrev S2048x1 : Shape := ⟨2, ![2048, 1]⟩

abbrev nBuf : Space → Nat
  | .hbm => 11
  | .vmem => 11
  | .smem => 0
  | _ => 0

abbrev bufTy : (tb : Table) → Fin (tcTables nBuf tb) → BufTy
  | .hbm, ⟨0, _⟩ => ⟨S32768x784, .f32⟩
  | .hbm, ⟨1, _⟩ => ⟨S39x784, .f32⟩
  | .hbm, ⟨2, _⟩ => ⟨S26x39, .f32⟩
  | .hbm, ⟨3, _⟩ => ⟨S26, .f32⟩
  | .hbm, ⟨4, _⟩ => ⟨S10x26, .f32⟩
  | .hbm, ⟨5, _⟩ => ⟨S10x10, .f32⟩
  | .hbm, ⟨6, _⟩ => ⟨S10, .f32⟩
  | .hbm, ⟨7, _⟩ => ⟨S10x10, .f32⟩
  | .hbm, ⟨8, _⟩ => ⟨S1x26, .f32⟩
  | .hbm, ⟨9, _⟩ => ⟨S1x10, .f32⟩
  | .hbm, ⟨10, _⟩ => ⟨S32768x10, .f32⟩
  | .local _ .vmem, ⟨0, _⟩ => ⟨S2048x784, .f32⟩
  | .local _ .vmem, ⟨1, _⟩ => ⟨S2048x784, .f32⟩
  | .local _ .vmem, ⟨2, _⟩ => ⟨S39x784, .f32⟩
  | .local _ .vmem, ⟨3, _⟩ => ⟨S26x39, .f32⟩
  | .local _ .vmem, ⟨4, _⟩ => ⟨S1x26, .f32⟩
  | .local _ .vmem, ⟨5, _⟩ => ⟨S10x26, .f32⟩
  | .local _ .vmem, ⟨6, _⟩ => ⟨S10x10, .f32⟩
  | .local _ .vmem, ⟨7, _⟩ => ⟨S1x10, .f32⟩
  | .local _ .vmem, ⟨8, _⟩ => ⟨S10x10, .f32⟩
  | .local _ .vmem, ⟨9, _⟩ => ⟨S2048x10, .f32⟩
  | .local _ .vmem, ⟨10, _⟩ => ⟨S2048x10, .f32⟩
  | _, _ => ⟨S32768x784, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x784 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S39x784 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S26x39 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x26 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S10x26 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S10x10 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x10 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S10x10 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S2048x10 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  shapeCasts_S26_S1x26 : S26.ShapeCasts S1x26
  shapeCasts_S10_S1x10 : S10.ShapeCasts S1x10
  inb_S2048x784_S2048x784_0_0 : ∀ a, (![0, 0] : Fin 2 → Nat) a + S2048x784.size a ≤ S2048x784.size a
  h_S2048x784 : 0 < S2048x784.numel
  bitsLt_bf16_f32 : FTy.bits .bf16 < FTy.bits .f32
  inb_S39x784_S39x784_0_0 : ∀ a, (![0, 0] : Fin 2 → Nat) a + S39x784.size a ≤ S39x784.size a
  h_S39x784 : 0 < S39x784.numel
  transposes_S39x784_p1_0_S784x39 : S39x784.Transposes [1, 0] S784x39
  inb_S26x39_S26x39_0_0 : ∀ a, (![0, 0] : Fin 2 → Nat) a + S26x39.size a ≤ S26x39.size a
  h_S26x39 : 0 < S26x39.numel
  transposes_S26x39_p1_0_S39x26 : S26x39.Transposes [1, 0] S39x26
  inb_S1x26_S1x26_0_0 : ∀ a, (![0, 0] : Fin 2 → Nat) a + S1x26.size a ≤ S1x26.size a
  h_S1x26 : 0 < S1x26.numel
  shapeCasts_S1x26_S1x26 : S1x26.ShapeCasts S1x26
  broadcasts_S1x26_S2048x26 : S1x26.Broadcasts S2048x26
  inb_S10x26_S10x26_0_0 : ∀ a, (![0, 0] : Fin 2 → Nat) a + S10x26.size a ≤ S10x26.size a
  h_S10x26 : 0 < S10x26.numel
  transposes_S10x26_p1_0_S26x10 : S10x26.Transposes [1, 0] S26x10
  inb_S10x10_S10x10_0_0 : ∀ a, (![0, 0] : Fin 2 → Nat) a + S10x10.size a ≤ S10x10.size a
  h_S10x10 : 0 < S10x10.numel
  transposes_S10x10_p1_0_S10x10 : S10x10.Transposes [1, 0] S10x10
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S2048x10 : S1x10.Broadcasts S2048x10
  reduces_S2048x10_S2048 : S2048x10.Reduces [1] S2048
  shapeCasts_S2048_S2048x1 : S2048.ShapeCasts S2048x1
  broadcasts_S2048x1_S2048x10 : S2048x1.Broadcasts S2048x10
  inb_S2048x10_S2048x10_0_0 : ∀ a, (![0, 0] : Fin 2 → Nat) a + S2048x10.size a ≤ S2048x10.size a
  h_S2048x10 : 0 < S2048x10.numel
  dot_S2048x784_S784x39_S2048x39_1_0_0_1_n_n_wf : DotDims.WF S2048x784 S784x39 S2048x39 [1] [0] [0] [1] [] []
  dot_S2048x39_S39x26_S2048x26_1_0_0_1_n_n_wf : DotDims.WF S2048x39 S39x26 S2048x26 [1] [0] [0] [1] [] []
  dot_S2048x26_S26x10_S2048x10_1_0_0_1_n_n_wf : DotDims.WF S2048x26 S26x10 S2048x10 [1] [0] [0] [1] [] []
  dot_S2048x10_S10x10_S2048x10_1_0_0_1_n_n_wf : DotDims.WF S2048x10 S10x10 S2048x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x784.size a ≤ S32768x784.size a
  hwx0_0 : ∀ i : grid0.Coords, EltTy.bits .f32 = 32 ∨ (Rect.block (s := S32768x784) S2048x784.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S39x784.size a ≤ S39x784.size a
  hwx0_1 : ∀ i : grid0.Coords, EltTy.bits .f32 = 32 ∨ (Rect.block (s := S39x784) S39x784.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S26x39.size a ≤ S26x39.size a
  hwx0_2 : ∀ i : grid0.Coords, EltTy.bits .f32 = 32 ∨ (Rect.block (s := S26x39) S26x39.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x26.size a ≤ S1x26.size a
  hwx0_3 : ∀ i : grid0.Coords, EltTy.bits .f32 = 32 ∨ (Rect.block (s := S1x26) S1x26.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S10x26.size a ≤ S10x26.size a
  hwx0_4 : ∀ i : grid0.Coords, EltTy.bits .f32 = 32 ∨ (Rect.block (s := S10x26) S10x26.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S10x10.size a ≤ S10x10.size a
  hwx0_5 : ∀ i : grid0.Coords, EltTy.bits .f32 = 32 ∨ (Rect.block (s := S10x10) S10x10.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x10.size a ≤ S1x10.size a
  hwx0_6 : ∀ i : grid0.Coords, EltTy.bits .f32 = 32 ∨ (Rect.block (s := S1x10) S1x10.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S10x10.size a ≤ S10x10.size a
  hwx0_7 : ∀ i : grid0.Coords, EltTy.bits .f32 = 32 ∨ (Rect.block (s := S10x10) S10x10.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S2048x10.size a ≤ S32768x10.size a
  hwx0_8 : ∀ i : grid0.Coords, EltTy.bits .f32 = 32 ∨ (Rect.block (s := S32768x10) S2048x10.size (cc0_transform_8 i) (hinb0_8 i)).WholeWords (EltTy.packing .f32)

variable [Facts₀]

def dot_S2048x784_S784x39_S2048x39_1_0_0_1_n_n : DotDims S2048x784 S784x39 S2048x39 where
  lhsContracting := [1]
  rhsContracting := [0]
  lhsNonContracting := [0]
  rhsNonContracting := [1]
  lhsBatch := []
  rhsBatch := []
  wf := dot_S2048x784_S784x39_S2048x39_1_0_0_1_n_n_wf
def dot_S2048x39_S39x26_S2048x26_1_0_0_1_n_n : DotDims S2048x39 S39x26 S2048x26 where
  lhsContracting := [1]
  rhsContracting := [0]
  lhsNonContracting := [0]
  rhsNonContracting := [1]
  lhsBatch := []
  rhsBatch := []
  wf := dot_S2048x39_S39x26_S2048x26_1_0_0_1_n_n_wf
def dot_S2048x26_S26x10_S2048x10_1_0_0_1_n_n : DotDims S2048x26 S26x10 S2048x10 where
  lhsContracting := [1]
  rhsContracting := [0]
  lhsNonContracting := [0]
  rhsNonContracting := [1]
  lhsBatch := []
  rhsBatch := []
  wf := dot_S2048x26_S26x10_S2048x10_1_0_0_1_n_n_wf
def dot_S2048x10_S10x10_S2048x10_1_0_0_1_n_n : DotDims S2048x10 S10x10 S2048x10 where
  lhsContracting := [1]
  rhsContracting := [0]
  lhsNonContracting := [0]
  rhsNonContracting := [1]
  lhsBatch := []
  rhsBatch := []
  wf := dot_S2048x10_S10x10_S2048x10_1_0_0_1_n_n_wf

abbrev win0_0 : Pipeline.Window sig grid0 :=
  Pipeline.Window.ofSpec (Memref.whole main_arg0) S2048x784.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S39x784.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S26x39.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x26.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S10x26.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S10x10.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v1) S1x10.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S10x10.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v2) S2048x10.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S32768x784 : Shape := ⟨2, ![32768, 784]⟩
abbrev S39x784 : Shape := ⟨2, ![39, 784]⟩
abbrev S26x39 : Shape := ⟨2, ![26, 39]⟩
abbrev S26 : Shape := ⟨1, ![26]⟩
abbrev S10x26 : Shape := ⟨2, ![10, 26]⟩
abbrev S10x10 : Shape := ⟨2, ![10, 10]⟩
abbrev S10 : Shape := ⟨1, ![10]⟩
abbrev S784x39 : Shape := ⟨2, ![784, 39]⟩
abbrev S32768x39 : Shape := ⟨2, ![32768, 39]⟩
abbrev S_ : Shape := ⟨0, ![]⟩
abbrev S39x26 : Shape := ⟨2, ![39, 26]⟩
abbrev S32768x26 : Shape := ⟨2, ![32768, 26]⟩
abbrev S1x26 : Shape := ⟨2, ![1, 26]⟩
abbrev S26x10 : Shape := ⟨2, ![26, 10]⟩
abbrev S32768x10 : Shape := ⟨2, ![32768, 10]⟩
abbrev S1x10 : Shape := ⟨2, ![1, 10]⟩
abbrev S32768 : Shape := ⟨1, ![32768]⟩
abbrev S32768x1 : Shape := ⟨2, ![32768, 1]⟩

abbrev nBuf : Space → Nat
  | .hbm => 71
  | .vmem => 0
  | .smem => 0
  | _ => 0

abbrev bufTy : (tb : Table) → Fin (tcTables nBuf tb) → BufTy
  | .hbm, ⟨0, _⟩ => ⟨S32768x784, .f32⟩
  | .hbm, ⟨1, _⟩ => ⟨S39x784, .f32⟩
  | .hbm, ⟨2, _⟩ => ⟨S26x39, .f32⟩
  | .hbm, ⟨3, _⟩ => ⟨S26, .f32⟩
  | .hbm, ⟨4, _⟩ => ⟨S10x26, .f32⟩
  | .hbm, ⟨5, _⟩ => ⟨S10x10, .f32⟩
  | .hbm, ⟨6, _⟩ => ⟨S10, .f32⟩
  | .hbm, ⟨7, _⟩ => ⟨S10x10, .f32⟩
  | .hbm, ⟨8, _⟩ => ⟨S784x39, .f32⟩
  | .hbm, ⟨9, _⟩ => ⟨S32768x39, .f32⟩
  | .hbm, ⟨10, _⟩ => ⟨S32768x39, .f32⟩
  | .hbm, ⟨11, _⟩ => ⟨S32768x39, .f32⟩
  | .hbm, ⟨12, _⟩ => ⟨S_, .f32⟩
  | .hbm, ⟨13, _⟩ => ⟨S32768x39, .f32⟩
  | .hbm, ⟨14, _⟩ => ⟨S32768x39, .f32⟩
  | .hbm, ⟨15, _⟩ => ⟨S_, .f32⟩
  | .hbm, ⟨16, _⟩ => ⟨S32768x39, .f32⟩
  | .hbm, ⟨17, _⟩ => ⟨S32768x39, .f32⟩
  | .hbm, ⟨18, _⟩ => ⟨S39x26, .f32⟩
  | .hbm, ⟨19, _⟩ => ⟨S32768x26, .f32⟩
  | .hbm, ⟨20, _⟩ => ⟨S1x26, .f32⟩
  | .hbm, ⟨21, _⟩ => ⟨S32768x26, .f32⟩
  | .hbm, ⟨22, _⟩ => ⟨S32768x26, .f32⟩
  | .hbm, ⟨23, _⟩ => ⟨S32768x26, .f32⟩
  | .hbm, ⟨24, _⟩ => ⟨S32768x26, .f32⟩
  | .hbm, ⟨25, _⟩ => ⟨S_, .f32⟩
  | .hbm, ⟨26, _⟩ => ⟨S32768x26, .f32⟩
  | .hbm, ⟨27, _⟩ => ⟨S32768x26, .f32⟩
  | .hbm, ⟨28, _⟩ => ⟨S_, .f32⟩
  | .hbm, ⟨29, _⟩ => ⟨S32768x26, .f32⟩
  | .hbm, ⟨30, _⟩ => ⟨S32768x26, .f32⟩
  | .hbm, ⟨31, _⟩ => ⟨S26x10, .f32⟩
  | .hbm, ⟨32, _⟩ => ⟨S32768x10, .f32⟩
  | .hbm, ⟨33, _⟩ => ⟨S32768x10, .f32⟩
  | .hbm, ⟨34, _⟩ => ⟨S32768x10, .f32⟩
  | .hbm, ⟨35, _⟩ => ⟨S_, .f32⟩
  | .hbm, ⟨36, _⟩ => ⟨S32768x10, .f32⟩
  | .hbm, ⟨37, _⟩ => ⟨S32768x10, .f32⟩
  | .hbm, ⟨38, _⟩ => ⟨S_, .f32⟩
  | .hbm, ⟨39, _⟩ => ⟨S32768x10, .f32⟩
  | .hbm, ⟨40, _⟩ => ⟨S32768x10, .f32⟩
  | .hbm, ⟨41, _⟩ => ⟨S10x10, .f32⟩
  | .hbm, ⟨42, _⟩ => ⟨S32768x10, .f32⟩
  | .hbm, ⟨43, _⟩ => ⟨S1x10, .f32⟩
  | .hbm, ⟨44, _⟩ => ⟨S32768x10, .f32⟩
  | .hbm, ⟨45, _⟩ => ⟨S32768x10, .f32⟩
  | .hbm, ⟨46, _⟩ => ⟨S32768x10, .f32⟩
  | .hbm, ⟨47, _⟩ => ⟨S32768x10, .f32⟩
  | .hbm, ⟨48, _⟩ => ⟨S_, .f32⟩
  | .hbm, ⟨49, _⟩ => ⟨S32768x10, .f32⟩
  | .hbm, ⟨50, _⟩ => ⟨S32768x10, .f32⟩
  | .hbm, ⟨51, _⟩ => ⟨S_, .f32⟩
  | .hbm, ⟨52, _⟩ => ⟨S32768x10, .f32⟩
  | .hbm, ⟨53, _⟩ => ⟨S32768x10, .f32⟩
  | .hbm, ⟨54, _⟩ => ⟨S10x10, .f32⟩
  | .hbm, ⟨55, _⟩ => ⟨S32768x10, .f32⟩
  | .hbm, ⟨56, _⟩ => ⟨S_, .f32⟩
  | .hbm, ⟨57, _⟩ => ⟨S32768, .f32⟩
  | .hbm, ⟨58, _⟩ => ⟨S_, .f32⟩
  | .hbm, ⟨59, _⟩ => ⟨S32768, .f32⟩
  | .hbm, ⟨60, _⟩ => ⟨S32768, .f32⟩
  | .hbm, ⟨61, _⟩ => ⟨S32768x1, .f32⟩
  | .hbm, ⟨62, _⟩ => ⟨S32768x10, .f32⟩
  | .hbm, ⟨63, _⟩ => ⟨S32768x10, .f32⟩
  | .hbm, ⟨64, _⟩ => ⟨S32768x10, .f32⟩
  | .hbm, ⟨65, _⟩ => ⟨S_, .f32⟩
  | .hbm, ⟨66, _⟩ => ⟨S32768, .f32⟩
  | .hbm, ⟨67, _⟩ => ⟨S32768x1, .f32⟩
  | .hbm, ⟨68, _⟩ => ⟨S32768x1, .f32⟩
  | .hbm, ⟨69, _⟩ => ⟨S32768x10, .f32⟩
  | .hbm, ⟨70, _⟩ => ⟨S32768x10, .f32⟩
  | _, _ => ⟨S32768x784, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_1 : Ref sig .tc := ⟨.hbm, 25, rfl⟩
abbrev main_v15 : Ref sig .tc := ⟨.hbm, 26, rfl⟩
abbrev main_v16 : Ref sig .tc := ⟨.hbm, 27, rfl⟩
abbrev main_cst_2 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_3 : Ref sig .tc := ⟨.hbm, 35, rfl⟩
abbrev main_v23 : Ref sig .tc := ⟨.hbm, 36, rfl⟩
abbrev main_v24 : Ref sig .tc := ⟨.hbm, 37, rfl⟩
abbrev main_cst_4 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_5 : Ref sig .tc := ⟨.hbm, 48, rfl⟩
abbrev main_v34 : Ref sig .tc := ⟨.hbm, 49, rfl⟩
abbrev main_v35 : Ref sig .tc := ⟨.hbm, 50, rfl⟩
abbrev main_cst_6 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_call0_cst : Ref sig .tc := ⟨.hbm, 56, rfl⟩
abbrev main_call0_v0 : Ref sig .tc := ⟨.hbm, 57, rfl⟩
abbrev main_call0_cst_0 : Ref sig .tc := ⟨.hbm, 58, rfl⟩
abbrev main_call0_v1 : Ref sig .tc := ⟨.hbm, 59, rfl⟩
abbrev main_call0_v2 : Ref sig .tc := ⟨.hbm, 60, rfl⟩
abbrev main_call0_v3 : Ref sig .tc := ⟨.hbm, 61, rfl⟩
abbrev main_call0_v4 : Ref sig .tc := ⟨.hbm, 62, rfl⟩
abbrev main_call0_v5 : Ref sig .tc := ⟨.hbm, 63, rfl⟩
abbrev main_call0_v6 : Ref sig .tc := ⟨.hbm, 64, rfl⟩
abbrev main_call0_cst_1 : Ref sig .tc := ⟨.hbm, 65, rfl⟩
abbrev main_call0_v7 : Ref sig .tc := ⟨.hbm, 66, rfl⟩
abbrev main_call0_v8 : Ref sig .tc := ⟨.hbm, 67, rfl⟩
abbrev main_call0_v9 : Ref sig .tc := ⟨.hbm, 68, rfl⟩
abbrev main_call0_v10 : Ref sig .tc := ⟨.hbm, 69, rfl⟩
abbrev main_v40 : Ref sig .tc := ⟨.hbm, 70, rfl⟩

abbrev nD : Nat := 1
abbrev τ : Topo := Topo.v7x

variable {F : FTy → Type} [FloatOps F]

class Facts₀ : Prop where
  transposes_S39x784_S784x39_1_0 : S39x784.Transposes [1, 0] S784x39
  bcast_S_S32768x39 : S_.BroadcastsInDim S32768x39 (![] : Fin 0 → Fin S32768x39.rank)
  transposes_S26x39_S39x26_1_0 : S26x39.Transposes [1, 0] S39x26
  bcast_S26_S1x26_1 : S26.BroadcastsInDim S1x26 (![1] : Fin 1 → Fin S1x26.rank)
  bcast_S1x26_S32768x26_0_1 : S1x26.BroadcastsInDim S32768x26 (![0, 1] : Fin 2 → Fin S32768x26.rank)
  bcast_S_S32768x26 : S_.BroadcastsInDim S32768x26 (![] : Fin 0 → Fin S32768x26.rank)
  transposes_S10x26_S26x10_1_0 : S10x26.Transposes [1, 0] S26x10
  bcast_S_S32768x10 : S_.BroadcastsInDim S32768x10 (![] : Fin 0 → Fin S32768x10.rank)
  transposes_S10x10_S10x10_1_0 : S10x10.Transposes [1, 0] S10x10
  bcast_S10_S1x10_1 : S10.BroadcastsInDim S1x10 (![1] : Fin 1 → Fin S1x10.rank)
  bcast_S1x10_S32768x10_0_1 : S1x10.BroadcastsInDim S32768x10 (![0, 1] : Fin 2 → Fin S32768x10.rank)
  reducesTo_S32768x10_S32768_d1 : S32768x10.ReducesTo [1] S32768
  h_S_ : 0 < S_.numel
  bcast_S_S32768 : S_.BroadcastsInDim S32768 (![] : Fin 0 → Fin S32768.rank)
  bcast_S32768_S32768x1_0 : S32768.BroadcastsInDim S32768x1 (![0] : Fin 1 → Fin S32768x1.rank)
  bcast_S32768x1_S32768x10_0_1 : S32768x1.BroadcastsInDim S32768x10 (![0, 1] : Fin 2 → Fin S32768x10.rank)
  dot_S32768x784_S784x39_S32768x39_1_0_0_1_n_n_wf : DotDims.WF S32768x784 S784x39 S32768x39 [1] [0] [0] [1] [] []
  dot_S32768x39_S39x26_S32768x26_1_0_0_1_n_n_wf : DotDims.WF S32768x39 S39x26 S32768x26 [1] [0] [0] [1] [] []
  dot_S32768x26_S26x10_S32768x10_1_0_0_1_n_n_wf : DotDims.WF S32768x26 S26x10 S32768x10 [1] [0] [0] [1] [] []
  dot_S32768x10_S10x10_S32768x10_1_0_0_1_n_n_wf : DotDims.WF S32768x10 S10x10 S32768x10 [1] [0] [0] [1] [] []

variable [Facts₀]

def dot_S32768x784_S784x39_S32768x39_1_0_0_1_n_n : DotDims S32768x784 S784x39 S32768x39 where
  lhsContracting := [1]
  rhsContracting := [0]
  lhsNonContracting := [0]
  rhsNonContracting := [1]
  lhsBatch := []
  rhsBatch := []
  wf := dot_S32768x784_S784x39_S32768x39_1_0_0_1_n_n_wf
def dot_S32768x39_S39x26_S32768x26_1_0_0_1_n_n : DotDims S32768x39 S39x26 S32768x26 where
  lhsContracting := [1]
  rhsContracting := [0]
  lhsNonContracting := [0]
  rhsNonContracting := [1]
  lhsBatch := []
  rhsBatch := []
  wf := dot_S32768x39_S39x26_S32768x26_1_0_0_1_n_n_wf
def dot_S32768x26_S26x10_S32768x10_1_0_0_1_n_n : DotDims S32768x26 S26x10 S32768x10 where
  lhsContracting := [1]
  rhsContracting := [0]
  lhsNonContracting := [0]
  rhsNonContracting := [1]
  lhsBatch := []
  rhsBatch := []
  wf := dot_S32768x26_S26x10_S32768x10_1_0_0_1_n_n_wf
def dot_S32768x10_S10x10_S32768x10_1_0_0_1_n_n : DotDims S32768x10 S10x10 S32768x10 where
  lhsContracting := [1]
  rhsContracting := [0]
  lhsNonContracting := [0]
  rhsNonContracting := [1]
  lhsBatch := []
  rhsBatch := []
  wf := dot_S32768x10_S10x10_S32768x10_1_0_0_1_n_n_wf

class Facts : Prop extends Facts₀ where

variable [Facts]
-- ==== Proof.LibDense.lean ====
/-
  A matrix product whose one contracted axis is the left operand's columns and the right operand's rows, accumulated
  into the zero matrix and read at an entry: the entry `(p, j)` is the sum over `k` of `lhs (p, k) * rhs (k, j)`, for
  any extents and any dimension record that lists the axes in that way (no batch axis, rows of the left and columns of
  the right kept). Then the same facts about a whole matrix seen BY ITS ROWS — a product, a bias row added to every row, a
  change of float format, a rectifier — each as an equation between functions of the row number, so that a chain of dense
  layers is rewritten from the inside out with no binder in the way. Last, the pointwise transcendentals a gated cell
  uses, read at an index.
-/
import Idealize.ShloMosaic.Lib.Pipeline.Value
import Idealize.ShloMosaic.Lib.ValueIdx
import Idealize.ShloMosaic.Lib.ValueLayout
import Idealize.ShloMosaic.PureOps.Ideal.Laws

namespace Cert.LibDense

open Idealize.ShloMosaic Idealize.ShloMosaic.ValueIdx

/-- The product of an `[M, K]` and a `[K, N]` matrix into the zero accumulator, at `(p, j)`: the sum over the shared
    axis of the products of row `p` of the left with column `j` of the right. -/
theorem matmul2d_apply {M K N : ℕ} {φ₁ φ₂ : FTy}
    (D : DotDims ⟨2, ![M, K]⟩ ⟨2, ![K, N]⟩ ⟨2, ![M, N]⟩)
    (hlc : D.lhsContracting = [1]) (hrc : D.rhsContracting = [0]) (hln : D.lhsNonContracting = [0])
    (hrn : D.rhsNonContracting = [1]) (hlb : D.lhsBatch = []) (hrb : D.rhsBatch = [])
    (prec : Option ContractPrecision)
    (lhs : FVec Ideal ⟨2, ![M, K]⟩ φ₁) (rhs : FVec Ideal ⟨2, ![K, N]⟩ φ₂) (p : Fin M) (j : Fin N) :
    matmul D prec lhs rhs (constant ⟨2, ![M, N]⟩ .f32 0x00000000#32) (ix2 p j)
      = ∑ k : Fin K, lhs (ix2 p k) * rhs (ix2 k j) := by
  obtain ⟨lc, rc, ln, rn, lb, rb, wf⟩ := D
  dsimp only at hlc hrc hln hrn hlb hrb
  subst hlc hrc hln hrn hlb hrb
  set D : DotDims ⟨2, ![M, K]⟩ ⟨2, ![K, N]⟩ ⟨2, ![M, N]⟩ := ⟨[1], [0], [0], [1], [], [], wf⟩ with hD
  simp only [matmul]
  rw [Ideal.matmul_constant_zero_apply, ← Equiv.sum_comp (contrEquiv1 D K rfl rfl).symm]
  refine Finset.sum_congr rfl fun k _ => ?_
  have hk := contrEquiv1_symm_val D K rfl rfl k
  have el : D.lhsIdx (ix2 p j) ((contrEquiv1 D K rfl rfl).symm k) = ix2 p k := funext fun a => Fin.ext (by
    match a with
    | ⟨0, _⟩ =>
      show (D.lhsIdx (ix2 p j) _ 0).val = p.val
      unfold DotDims.lhsIdx
      rw [dif_neg (show ¬(0 : Fin (⟨2, ![M, K]⟩ : Shape).rank) ∈ D.lhsBatch from List.not_mem_nil),
        dif_pos (show (0 : Fin (⟨2, ![M, K]⟩ : Shape).rank) ∈ D.lhsNonContracting from List.mem_singleton.mpr rfl)]
      rfl
    | ⟨1, _⟩ => exact (D.lhsIdx_val_of_single rfl (ix2 p j) _).trans hk)
  have er : D.rhsIdx (ix2 p j) ((contrEquiv1 D K rfl rfl).symm k) = ix2 k j := funext fun a => Fin.ext (by
    match a with
    | ⟨0, _⟩ => exact (D.rhsIdx_val_of_single rfl (ix2 p j) _).trans hk
    | ⟨1, _⟩ =>
      show (D.rhsIdx (ix2 p j) _ 1).val = j.val
      unfold DotDims.rhsIdx
      rw [dif_neg (show ¬(1 : Fin (⟨2, ![K, N]⟩ : Shape).rank) ∈ D.rhsBatch from List.not_mem_nil),
        dif_pos (show (1 : Fin (⟨2, ![K, N]⟩ : Shape).rank) ∈ D.rhsNonContracting from List.mem_singleton.mpr rfl)]
      rfl)
  rw [el, er]

/-! ## A matrix by its rows -/

/-- Row `p` of a matrix, as a function of the column. -/
def rows {M N : ℕ} {α : Type} (A : (⟨2, ![M, N]⟩ : Shape).Idx → α) (p : Fin M) (j : Fin N) : α := A (ix2 p j)

/-- A `[K, J]` array read as weights from input `k` to output `j`: the array holds the weights transposed. -/
def matT {K J : ℕ} (W : (⟨2, ![K, J]⟩ : Shape).Idx → EReal) (j : Fin J) (k : Fin K) : EReal := W (ix2 k j)

/-- A `[1, J]` array read as the bias of output `j`. -/
def rowv {J : ℕ} (B : (⟨2, ![1, J]⟩ : Shape).Idx → EReal) (j : Fin J) : EReal := B (ix2 (0 : Fin 1) j)

section Rows
variable {M K N : ℕ} {φ φ₁ φ₂ : FTy}

/-- A cast of a matrix to its own shape has the same rows. -/
theorem rows_shapeCast_self {α : Type} (A : (⟨2, ![M, N]⟩ : Shape).Idx → α)
    (h : (⟨2, ![M, N]⟩ : Shape).ShapeCasts ⟨2, ![M, N]⟩) : rows (shapeCast ⟨2, ![M, N]⟩ A h) = rows A := by
  rw [shapeCast_self]

/-- A change of float format keeps every entry. -/
theorem rows_truncf {ψ : FTy} (A : FVec Ideal ⟨2, ![M, N]⟩ φ) (h : ψ.bits < φ.bits) :
    rows (truncf ψ A h : FVec Ideal ⟨2, ![M, N]⟩ ψ) = rows A := rfl

/-- The entrywise maximum with a constant. -/
theorem rows_maximumf_splat (A : FVec Ideal ⟨2, ![M, N]⟩ φ) (z : Ideal φ) :
    rows (maximumf A (broadcast ⟨2, ![M, N]⟩ z)) = fun p j => max (rows A p j) z := rfl

/-- The rows of a product into the zero accumulator: row `p` is the weighted sum of the right operand's rows. -/
theorem rows_matmul (D : DotDims ⟨2, ![M, K]⟩ ⟨2, ![K, N]⟩ ⟨2, ![M, N]⟩)
    (hlc : D.lhsContracting = [1]) (hrc : D.rhsContracting = [0]) (hln : D.lhsNonContracting = [0])
    (hrn : D.rhsNonContracting = [1]) (hlb : D.lhsBatch = []) (hrb : D.rhsBatch = [])
    (prec : Option ContractPrecision) (lhs : FVec Ideal ⟨2, ![M, K]⟩ φ₁) (rhs : FVec Ideal ⟨2, ![K, N]⟩ φ₂) :
    rows (matmul D prec lhs rhs (constant ⟨2, ![M, N]⟩ .f32 0x00000000#32))
      = fun p j => ∑ k : Fin K, rows lhs p k * rows rhs k j :=
  funext fun p => funext fun j => matmul2d_apply D hlc hrc hln hrn hlb hrb prec lhs rhs p j

/-- One row added to every row. -/
theorem rows_addf_rowBias (A : FVec Ideal ⟨2, ![M, N]⟩ φ) (b : FVec Ideal ⟨2, ![1, N]⟩ φ)
    (hb : (⟨2, ![1, N]⟩ : Shape).Broadcasts ⟨2, ![M, N]⟩) :
    rows (addf A (broadcastTo ⟨2, ![M, N]⟩ b hb)) = fun p j => rows A p j + rows b (0 : Fin 1) j := by
  funext p j
  show A (ix2 p j) + broadcastTo ⟨2, ![M, N]⟩ b hb (ix2 p j) = _
  rw [broadcastTo_1b_ab_apply]
  rfl

end Rows

/-! ## Pointwise transcendentals at an index -/

variable {s : Shape} {φ : FTy}

theorem logistic_apply (x : FVec Ideal s φ) (i : s.Idx) : logistic x i = Ideal.logistic (x i) := rfl
theorem tanh_apply (x : FVec Ideal s φ) (i : s.Idx) : tanh x i = Ideal.tanh (x i) := rfl
theorem exp_apply (x : FVec Ideal s φ) (i : s.Idx) : exp x i = Ideal.exp (x i) := rfl
theorem log1p_apply (x : FVec Ideal s φ) (i : s.Idx) : log1p x i = Ideal.log1p (x i) := rfl
theorem absf_apply (x : FVec Ideal s φ) (i : s.Idx) : absf x i = max (x i) (-(x i)) := rfl

end Cert.LibDense
-- ==== Proof.LibKeepdims.lean ====
/-
  Reductions over one axis of a rank-2 or rank-3 array, and the layout operations that put the reduced axis back as a
  unit axis and spread it again, read at an index written by coordinates, for any extents. A sum over an axis is the
  `Fin`-indexed sum over that axis's coordinates; a maximum is the fold of `max` over them from the accumulator's
  value.
-/
import Idealize.ShloMosaic.Lib.Pipeline.Value
import Idealize.ShloMosaic.Lib.ValueIdx
import Idealize.ShloMosaic.Lib.ValueLayout
import Idealize.ShloMosaic.PureOps.Ideal.Laws

namespace Cert.LibKeepdims

open Idealize.ShloMosaic Idealize.ShloMosaic.ValueIdx

variable {α : Type}

/-! ## Layout -/

/-- An `[a, c]` array cast to `[a, 1, c]` reads, at `(p, u, k)`, the operand at `(p, k)`. -/
theorem shapeCast_ac_a1c_apply {a c : ℕ} (x : (⟨2, ![a, c]⟩ : Shape).Idx → α)
    (h : (⟨2, ![a, c]⟩ : Shape).ShapeCasts ⟨3, ![a, 1, c]⟩) (p : Fin a) (u : Fin 1) (k : Fin c) :
    shapeCast ⟨3, ![a, 1, c]⟩ x h (ix3 p u k) = x (ix2 p k) :=
  shapeCast_apply x h _ _ (by
    have hu : u.val = 0 := by omega
    rw [Shape.rowMajor_val_two, Shape.rowMajor_val_three]
    show p.val * c + k.val = (p.val * 1 + u.val) * c + k.val
    rw [hu, Nat.mul_one, Nat.add_zero])

/-- An `[a, b]` array cast to `[a, b, 1]` reads, at `(p, q, u)`, the operand at `(p, q)`. -/
theorem shapeCast_ab_ab1_apply {a b : ℕ} (x : (⟨2, ![a, b]⟩ : Shape).Idx → α)
    (h : (⟨2, ![a, b]⟩ : Shape).ShapeCasts ⟨3, ![a, b, 1]⟩) (p : Fin a) (q : Fin b) (u : Fin 1) :
    shapeCast ⟨3, ![a, b, 1]⟩ x h (ix3 p q u) = x (ix2 p q) :=
  shapeCast_apply x h _ _ (by
    have hu : u.val = 0 := by omega
    rw [Shape.rowMajor_val_two, Shape.rowMajor_val_three]
    show p.val * b + q.val = (p.val * b + q.val) * 1 + u.val
    rw [hu, Nat.mul_one, Nat.add_zero])

/-- An `[a, 1, c]` array broadcast to `[a, b, c]` reads, at `(p, q, k)`, the operand at `(p, 0, k)`. -/
theorem broadcastTo_a1c_abc_apply {a b c : ℕ} (v : (⟨3, ![a, 1, c]⟩ : Shape).Idx → α)
    (h : (⟨3, ![a, 1, c]⟩ : Shape).Broadcasts ⟨3, ![a, b, c]⟩) (p : Fin a) (q : Fin b) (k : Fin c) :
    broadcastTo ⟨3, ![a, b, c]⟩ v h (ix3 p q k) = v (ix3 p (0 : Fin 1) k) := by
  refine broadcastTo_apply v h (ix3 p q k) (ix3 p (0 : Fin 1) k) fun ax => ?_
  match ax with
  | ⟨0, _⟩ =>
    show p.val = if a = 1 then 0 else p.val
    split
    · have := p.isLt; omega
    · rfl
  | ⟨1, _⟩ => rfl
  | ⟨2, _⟩ =>
    show k.val = if c = 1 then 0 else k.val
    split
    · have := k.isLt; omega
    · rfl

/-- An `[a, b, 1]` array broadcast to `[a, b, c]` reads, at `(p, q, k)`, the operand at `(p, q, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (p : Fin a) (q : Fin b) (k : Fin c) :
    broadcastTo ⟨3, ![a, b, c]⟩ v h (ix3 p q k) = v (ix3 p q (0 : Fin 1)) := by
  refine broadcastTo_apply v h (ix3 p q k) (ix3 p q (0 : Fin 1)) fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl
  | ⟨2, _⟩ => rfl

/-! ## The reduced index with the coordinate put back -/

theorem lift_mid3 {a b c : ℕ} (h : (⟨3, ![a, b, c]⟩ : Shape).Reduces [1] (⟨2, ![a, c]⟩ : Shape)) (p : Fin a) (k : Fin c)
    (q : Fin ((⟨3, ![a, b, c]⟩ : Shape).size 1)) : h.lift (ix2 p k) q = ix3 p (⟨q.val, q.isLt⟩ : Fin b) k := by
  funext ax; apply Fin.ext
  fin_cases ax <;> rfl

theorem lift_last3 {a b c : ℕ} (h : (⟨3, ![a, b, c]⟩ : Shape).Reduces [2] (⟨2, ![a, b]⟩ : Shape)) (p : Fin a) (q : Fin b)
    (k : Fin ((⟨3, ![a, b, c]⟩ : Shape).size 2)) : h.lift (ix2 p q) k = ix3 p q (⟨k.val, k.isLt⟩ : Fin c) := by
  funext ax; apply Fin.ext
  fin_cases ax <;> rfl

theorem lift_last2 {a b : ℕ} (h : (⟨2, ![a, b]⟩ : Shape).Reduces [1] (⟨1, ![a]⟩ : Shape)) (p : Fin a)
    (k : Fin ((⟨2, ![a, b]⟩ : Shape).size 1)) : h.lift (ix1 p) k = ix2 p (⟨k.val, k.isLt⟩ : Fin b) := by
  funext ax; apply Fin.ext
  fin_cases ax <;> rfl

/-! ## Sums and maxima over one axis, at the ideal values -/

variable {φ : FTy}

/-- The sum over the middle axis of an `[a, b, c]` array, at `(p, k)`: the sum over `q` of the entries `(p, q, k)`. -/
theorem sum_mid3_apply {a b c : ℕ} (src : FVec Ideal ⟨3, ![a, b, c]⟩ φ) (acc : BitVec φ.bits)
    (h : (⟨3, ![a, b, c]⟩ : Shape).Reduces [1] (⟨2, ![a, c]⟩ : Shape)) (hφ : FKind.Formats φ) (hacc : acc = FKind.add.neutral φ hφ)
    (p : Fin a) (k : Fin c) :
    multiReduction .add [1] ⟨2, ![a, c]⟩ src acc h hφ hacc (ix2 p k) = ∑ q : Fin b, src (ix3 p q k) :=
  (Ideal.multiReduction_add_single src acc h hφ hacc (ix2 p k)).trans
    (Finset.sum_congr rfl fun q _ => congrArg src (lift_mid3 h p k q))

/-- The sum over the last axis of an `[a, b, c]` array, at `(p, q)`: the sum over `k` of the entries `(p, q, k)`. -/
theorem sum_last3_apply {a b c : ℕ} (src : FVec Ideal ⟨3, ![a, b, c]⟩ φ) (acc : BitVec φ.bits)
    (h : (⟨3, ![a, b, c]⟩ : Shape).Reduces [2] (⟨2, ![a, b]⟩ : Shape)) (hφ : FKind.Formats φ) (hacc : acc = FKind.add.neutral φ hφ)
    (p : Fin a) (q : Fin b) :
    multiReduction .add [2] ⟨2, ![a, b]⟩ src acc h hφ hacc (ix2 p q) = ∑ k : Fin c, src (ix3 p q k) :=
  (Ideal.multiReduction_add_single src acc h hφ hacc (ix2 p q)).trans
    (Finset.sum_congr rfl fun k _ => congrArg src (lift_last3 h p q k))

/-- The sum over the last axis of an `[a, b]` array, at `p`: the sum over `k` of the entries `(p, k)`. -/
theorem sum_last2_apply {a b : ℕ} (src : FVec Ideal ⟨2, ![a, b]⟩ φ) (acc : BitVec φ.bits)
    (h : (⟨2, ![a, b]⟩ : Shape).Reduces [1] (⟨1, ![a]⟩ : Shape)) (hφ : FKind.Formats φ) (hacc : acc = FKind.add.neutral φ hφ)
    (p : Fin a) :
    multiReduction .add [1] ⟨1, ![a]⟩ src acc h hφ hacc (ix1 p) = ∑ k : Fin b, src (ix2 p k) :=
  (Ideal.multiReduction_add_single src acc h hφ hacc (ix1 p)).trans
    (Finset.sum_congr rfl fun k _ => congrArg src (lift_last2 h p k))

/-- The maximum over the middle axis of an `[a, b, c]` array, at `(p, k)`: the fold of `max`, from the accumulator's
    value, over the entries `(p, q, k)`. -/
theorem max_mid3_apply {a b c : ℕ} (src : FVec Ideal ⟨3, ![a, b, c]⟩ φ) (acc : BitVec φ.bits)
    (h : (⟨3, ![a, b, c]⟩ : Shape).Reduces [1] (⟨2, ![a, c]⟩ : Shape)) (hφ : FKind.Formats φ) (hacc : acc = FKind.maximumf.neutral φ hφ)
    (p : Fin a) (k : Fin c) :
    multiReduction .maximumf [1] ⟨2, ![a, c]⟩ src acc h hφ hacc (ix2 p k)
      = (Finset.univ : Finset (Fin b)).fold max (Ideal.ofBits φ acc) (fun q : Fin b => src (ix3 p q k)) := by
  refine (Ideal.multiReduction_maximumf_single src acc h hφ hacc (ix2 p k)).trans ?_
  have hf : (src ∘ h.lift (ix2 p k)) = fun q : Fin b => src (ix3 p q k) := funext fun q => congrArg src (lift_mid3 h p k q)
  exact congrArg (fun f => Finset.fold max (Ideal.ofBits φ acc) f (Finset.univ : Finset (Fin b))) hf

/-- The maximum over the last axis of an `[a, b]` array, at `p`: the fold of `max`, from the accumulator's value, over
    the entries `(p, k)`. -/
theorem max_last2_apply {a b : ℕ} (src : FVec Ideal ⟨2, ![a, b]⟩ φ) (acc : BitVec φ.bits)
    (h : (⟨2, ![a, b]⟩ : Shape).Reduces [1] (⟨1, ![a]⟩ : Shape)) (hφ : FKind.Formats φ) (hacc : acc = FKind.maximumf.neutral φ hφ)
    (p : Fin a) :
    multiReduction .maximumf [1] ⟨1, ![a]⟩ src acc h hφ hacc (ix1 p)
      = (Finset.univ : Finset (Fin b)).fold max (Ideal.ofBits φ acc) (fun k : Fin b => src (ix2 p k)) := by
  refine (Ideal.multiReduction_maximumf_single src acc h hφ hacc (ix1 p)).trans ?_
  have hf : (src ∘ h.lift (ix1 p)) = fun k : Fin b => src (ix2 p k) := funext fun k => congrArg src (lift_last2 h p k)
  exact congrArg (fun f => Finset.fold max (Ideal.ofBits φ acc) f (Finset.univ : Finset (Fin b))) hf

/-! ## The pointwise transcendentals at an index -/

theorem exp_apply {s : Shape} (x : FVec Ideal s φ) (i : s.Idx) : exp x i = Ideal.exp (x i) := rfl
theorem log_apply {s : Shape} (x : FVec Ideal s φ) (i : s.Idx) : log x i = Ideal.log (x i) := rfl

end Cert.LibKeepdims
-- ==== Proof.LibColumn.lean ====
/-
  Layout operations on a COLUMN, read at an index: a vector `[a]` viewed as a one-column matrix `[a, 1]`, a
  one-column matrix broadcast along its rows to `[a, b]`, and a `[1, 1, a]` array viewed as one row `[1, a]`.
  (The row forms — `[1, b] → [a, b]`, a leading unit axis added or dropped — are in the library; these are their
  column counterparts, which every row reduction that keeps its axis meets.) Also: the comparison of two row
  indices below `2^32`, as 32-bit words, is the comparison of the indices.
-/
import Idealize.ShloMosaic.Lib.Pipeline.Value
import Idealize.ShloMosaic.Lib.ValueIdx
import Idealize.ShloMosaic.Lib.ValueLayout

namespace Cert.LibColumn

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A `[1, 1, a]` array cast to `[1, a]` reads, at `(u, i)`, the operand at `(0, 0, i)`. -/
theorem shapeCast_11a_1a_apply {a : ℕ} (x : (⟨3, ![1, 1, a]⟩ : Shape).Idx → α) (h : (⟨3, ![1, 1, a]⟩ : Shape).ShapeCasts ⟨2, ![1, a]⟩)
    (u : Fin 1) (i : Fin a) : shapeCast ⟨2, ![1, a]⟩ x h (ix2 u i) = x (ix3 (0 : Fin 1) (0 : Fin 1) i) :=
  shapeCast_apply x h _ _ (by
    have hu : u.val = 0 := by omega
    rw [Shape.rowMajor_val_three, Shape.rowMajor_val_two]
    show (0 * 1 + 0) * a + i.val = u.val * a + i.val
    rw [hu])

/-- Two indices below `2^32` are equal exactly when their 32-bit words are: the word of the comparison is `1` on
    the diagonal and `0` off it. -/
theorem cmpi_eq_ofNat {n : ℕ} (hn : n ≤ 2 ^ 32) (l k : Fin n) :
    IntOp.cmpi .eq (BitVec.ofNat 32 l.val) (BitVec.ofNat 32 k.val) = if l = k then 1#1 else 0#1 := by
  have hl : l.val < 2 ^ 32 := lt_of_lt_of_le l.isLt hn
  have hk : k.val < 2 ^ 32 := lt_of_lt_of_le k.isLt hn
  have hiff : BitVec.ofNat 32 l.val = BitVec.ofNat 32 k.val ↔ l = k := by
    constructor
    · intro h
      have h' := congrArg BitVec.toNat h
      rw [BitVec.toNat_ofNat, BitVec.toNat_ofNat, Nat.mod_eq_of_lt hl, Nat.mod_eq_of_lt hk] at h'
      exact Fin.ext h'
    · rintro rfl; rfl
  unfold IntOp.cmpi
  by_cases h : l = k
  · subst h; simp
  · have hne : ¬ BitVec.ofNat 32 l.val = BitVec.ofNat 32 k.val := fun e => h (hiff.mp e)
    have hb : (BitVec.ofNat 32 l.val == BitVec.ofNat 32 k.val) = false := beq_eq_false_iff_ne.mpr hne
    rw [if_neg h]
    show BitVec.ofBool (BitVec.ofNat 32 l.val == BitVec.ofNat 32 k.val) = 0#1
    rw [hb]
    rfl

end Cert.LibColumn
-- ==== Proof.LibRowNet.lean ====
/-
  Small networks on the extended reals, one row at a time: the scalar building blocks and the laws between spellings.

  A dense layer's weights are read output-major: `W g k` is the weight from input `k` to output `g`, so output `g` is
  `∑ k, h k * W g k`. The logistic function is written `1 / (1 + e^(-v))`. The log-softmax of finitely many numbers `a` is
  `z q - log (∑ j, e^(z j))` with `z = a - max a`, the maximum found from `-∞` upward.

  The float words programs print for `1` and for `-∞` are kept as words and never evaluated: two programs that print the
  same words agree whatever the words denote.

  The laws: subtracting from zero is negating, for every extended real, the infinities included; a fold of `max` that
  starts from `b` is at least `b`, so taking the maximum with `b` once more changes nothing, whatever `b` is; a sum started
  from the word of zero is the sum. None of them needs a number to be finite.
-/
import Idealize.ShloMosaic.PureOps.Ideal
import Idealize.ShloMosaic.PureOps.Ideal.Laws
import Mathlib.Data.Finset.Fold

noncomputable section

namespace Cert.LibRowNet

open Idealize.ShloMosaic

/-- The extended real that the f32 word of `1.0` denotes. -/
def one : EReal := Ideal.ofBits .f32 0x3F800000#32

/-- The extended real that the f32 word `0xFF800000` denotes: the value a running maximum starts from. -/
def negInf : EReal := Ideal.ofBits .f32 0xFF800000#32

/-- The logistic function, spelt `1 / (1 + e^(-v))`. -/
def sigm (v : EReal) : EReal := Ideal.div one (one + Ideal.exp (-v))

/-- A dense layer without bias: output `g` is the sum over the inputs `k` of `h k * W g k`. -/
def dense {K N : ℕ} (W : Fin N → Fin K → EReal) (h : Fin K → EReal) (g : Fin N) : EReal := ∑ k : Fin K, h k * W g k

/-- The largest of finitely many numbers, found from `-∞` upward. -/
def rowMax {n : ℕ} (a : Fin n → EReal) : EReal := (Finset.univ : Finset (Fin n)).fold max negInf a

/-- The log-softmax of finitely many numbers, shifted by their maximum. -/
def logSoftmax {n : ℕ} (a : Fin n → EReal) (q : Fin n) : EReal :=
  (a q - rowMax a) - Ideal.log (∑ j : Fin n, Ideal.exp (a j - rowMax a))

/-! ## The laws -/

/-- Subtracting from zero is negating, for every extended real. -/
theorem zero_sub_eq_neg (v : EReal) : (0 : EReal) - v = -v := by
  rw [sub_eq_add_neg, zero_add]

/-- The logistic function written with `0 - v` for the negation, the zero a printed word. -/
theorem sigm_zero_sub (v : EReal) : Ideal.div one (one + Ideal.exp (Ideal.ofBits .f32 0x00000000#32 - v)) = sigm v := by
  rw [Ideal.ofBits_zero_f32, zero_sub_eq_neg]
  rfl

/-- A fold of `max` is at least the value it started from; so taking the maximum with that value again changes nothing. -/
theorem max_start_fold {n : ℕ} (b : EReal) (a : Fin n → EReal) :
    max b ((Finset.univ : Finset (Fin n)).fold max b a) = (Finset.univ : Finset (Fin n)).fold max b a :=
  max_eq_right ((Finset.le_fold_max b).mpr (Or.inl le_rfl))

/-- A sum started from the word of zero is the sum. -/
theorem zero_word_add (s : EReal) : Ideal.ofBits .f32 0x00000000#32 + s = s := by
  rw [Ideal.ofBits_zero_f32, zero_add]

end Cert.LibRowNet

end
-- ==== Proof.LibRowNetBody.lean ====
/-
  The building blocks of a small network as a kernel body computes them on a block of `M` rows, each read at an entry.

  A dense layer in the body: both operands are cut to a shorter float format first (which changes nothing on the extended
  reals), the weights, stored output-major as `[N, K]`, are transposed to `[K, N]`, and the product is accumulated from the
  zero matrix. Its entry `(p, g)` is the layer's output `g` on row `p`. A bias kept as one row `[1, N]` is added to every
  row. The logistic function is spelt `1 / (1 + exp (0 - h))` with the constants splat over the block. The log-softmax along
  the rows takes the row maximum from `-∞`, puts it back as one column `[M, 1]`, spreads it over the row, subtracts,
  exponentiates, sums along the row from zero, takes the logarithm of that column, spreads it and subtracts again.
  All for any extents, over any dimension record and layout facts of the right shape.
-/
import Idealize.ShloMosaic.Lib.Pipeline.Value
import Idealize.ShloMosaic.Lib.ValueIdx
import Idealize.ShloMosaic.Lib.ValueLayout
import Idealize.ShloMosaic.PureOps.Ideal.Laws
import proofs.«161194_j18442589569806_1_alg».proof.Proof.LibDense
import proofs.«161194_j18442589569806_1_alg».proof.Proof.LibKeepdims
import proofs.«161194_j18442589569806_1_alg».proof.Proof.LibColumn
import proofs.«161194_j18442589569806_1_alg».proof.Proof.LibRowNet

noncomputable section

namespace Cert.LibRowNetBody

open Idealize.ShloMosaic Idealize.ShloMosaic.ValueIdx Cert.LibRowNet

variable {M K N : ℕ}

/-! ## A dense layer -/

/-- One dense layer as a kernel body computes it: operands cut to bf16, the `[N, K]` weights transposed, the product
    accumulated from zero. -/
def bodyDense (D : DotDims ⟨2, ![M, K]⟩ ⟨2, ![K, N]⟩ ⟨2, ![M, N]⟩)
    (ht : (⟨2, ![N, K]⟩ : Shape).Transposes [1, 0] ⟨2, ![K, N]⟩) (hb : FTy.bf16.bits < FTy.f32.bits)
    (A : FVec Ideal ⟨2, ![M, K]⟩ .f32) (W : FVec Ideal ⟨2, ![N, K]⟩ .f32) : FVec Ideal ⟨2, ![M, N]⟩ .f32 :=
  matmul D none (truncf .bf16 A hb) (transpose ⟨2, ![K, N]⟩ [1, 0] (truncf .bf16 W hb) ht)
    (constant ⟨2, ![M, N]⟩ .f32 0x00000000#32)

/-- Its entry `(p, g)` is output `g` of the layer on row `p` of the left operand. -/
theorem bodyDense_apply (D : DotDims ⟨2, ![M, K]⟩ ⟨2, ![K, N]⟩ ⟨2, ![M, N]⟩)
    (hlc : D.lhsContracting = [1]) (hrc : D.rhsContracting = [0]) (hln : D.lhsNonContracting = [0])
    (hrn : D.rhsNonContracting = [1]) (hlb : D.lhsBatch = []) (hrb : D.rhsBatch = [])
    (ht : (⟨2, ![N, K]⟩ : Shape).Transposes [1, 0] ⟨2, ![K, N]⟩) (hb : FTy.bf16.bits < FTy.f32.bits)
    (A : FVec Ideal ⟨2, ![M, K]⟩ .f32) (W : FVec Ideal ⟨2, ![N, K]⟩ .f32) (p : Fin M) (g : Fin N) :
    bodyDense D ht hb A W (ix2 p g) = dense (fun g k => W (ix2 g k)) (fun k => A (ix2 p k)) g := by
  unfold bodyDense
  rw [Cert.LibDense.matmul2d_apply D hlc hrc hln hrn hlb hrb]
  exact Finset.sum_congr rfl fun k _ => congrArg (A (ix2 p k) * ·) (transpose_ix2_apply W ht k g)

/-- A matrix plus a bias kept as one row, the row first cast to its own shape: the bias of column `g` on every row. -/
theorem addf_rowBias_apply (A : FVec Ideal ⟨2, ![M, N]⟩ .f32) (b : FVec Ideal ⟨2, ![1, N]⟩ .f32)
    (hsc : (⟨2, ![1, N]⟩ : Shape).ShapeCasts ⟨2, ![1, N]⟩) (hbc : (⟨2, ![1, N]⟩ : Shape).Broadcasts ⟨2, ![M, N]⟩)
    (p : Fin M) (g : Fin N) :
    addf A (broadcastTo ⟨2, ![M, N]⟩ (shapeCast ⟨2, ![1, N]⟩ b hsc) hbc) (ix2 p g) = A (ix2 p g) + b (ix2 (0 : Fin 1) g) := by
  show A (ix2 p g) + broadcastTo ⟨2, ![M, N]⟩ (shapeCast ⟨2, ![1, N]⟩ b hsc) hbc (ix2 p g) = _
  rw [broadcastTo_1b_ab_apply, shapeCast_self]

/-! ## The logistic function -/

/-- The logistic function as a body spells it on a whole array: `1 / (1 + exp (0 - h))`, the constants splat. -/
def bodySigm {s : Shape} (h : FVec Ideal s .f32) : FVec Ideal s .f32 :=
  divf (broadcast s (Scalar.ofBits (F := Ideal) .f32 0x3F800000#32))
    (addf (broadcast s (Scalar.ofBits (F := Ideal) .f32 0x3F800000#32))
      (exp (subf (broadcast s (Scalar.ofBits (F := Ideal) .f32 0x00000000#32)) h)))

/-- Entry by entry it is the logistic function: subtracting from zero is negating. -/
theorem bodySigm_apply {s : Shape} (h : FVec Ideal s .f32) (i : s.Idx) : bodySigm h i = sigm (h i) :=
  sigm_zero_sub (h i)

/-! ## The log-softmax along the rows -/

section Softmax

variable (hr : (⟨2, ![M, N]⟩ : Shape).Reduces [1] (⟨1, ![M]⟩ : Shape)) (hφ : FKind.Formats FTy.f32)
  (hmax : (0xFF800000#32 : BitVec FTy.f32.bits) = FKind.maximumf.neutral .f32 hφ)
  (hadd : (0x00000000#32 : BitVec FTy.f32.bits) = FKind.add.neutral .f32 hφ)
  (hsc : (⟨1, ![M]⟩ : Shape).ShapeCasts ⟨2, ![M, 1]⟩) (hbc : (⟨2, ![M, 1]⟩ : Shape).Broadcasts ⟨2, ![M, N]⟩)

/-- Every row less its maximum, the maximum taken from `-∞`, kept as a column and spread over the row. -/
def bodyShift (a : FVec Ideal ⟨2, ![M, N]⟩ .f32) : FVec Ideal ⟨2, ![M, N]⟩ .f32 :=
  subf a (broadcastTo ⟨2, ![M, N]⟩
    (shapeCast ⟨2, ![M, 1]⟩ (multiReduction .maximumf [1] ⟨1, ![M]⟩ a 0xFF800000#32 hr hφ hmax) hsc) hbc)

theorem bodyShift_apply (a : FVec Ideal ⟨2, ![M, N]⟩ .f32) (p : Fin M) (q : Fin N) :
    bodyShift hr hφ hmax hsc hbc a (ix2 p q) = a (ix2 p q) - rowMax (fun j => a (ix2 p j)) := by
  show a (ix2 p q) - broadcastTo ⟨2, ![M, N]⟩
    (shapeCast ⟨2, ![M, 1]⟩ (multiReduction .maximumf [1] ⟨1, ![M]⟩ a 0xFF800000#32 hr hφ hmax) hsc) hbc (ix2 p q) = _
  rw [Cert.LibColumn.broadcastTo_a1_ab_apply, Cert.LibColumn.shapeCast_a_a1_apply, Cert.LibKeepdims.max_last2_apply]
  rfl

/-- The log-softmax along the rows: the shifted rows less the logarithm of the row sums of their exponentials. -/
def bodyLogSoftmax (a : FVec Ideal ⟨2, ![M, N]⟩ .f32) : FVec Ideal ⟨2, ![M, N]⟩ .f32 :=
  subf (bodyShift hr hφ hmax hsc hbc a) (broadcastTo ⟨2, ![M, N]⟩
    (log (shapeCast ⟨2, ![M, 1]⟩
      (multiReduction .add [1] ⟨1, ![M]⟩ (exp (bodyShift hr hφ hmax hsc hbc a)) 0x00000000#32 hr hφ hadd) hsc)) hbc)

/-- Its entry `(p, q)` is the log-softmax of row `p` at `q`. -/
theorem bodyLogSoftmax_apply (a : FVec Ideal ⟨2, ![M, N]⟩ .f32) (p : Fin M) (q : Fin N) :
    bodyLogSoftmax hr hφ hmax hadd hsc hbc a (ix2 p q) = logSoftmax (fun j => a (ix2 p j)) q := by
  show bodyShift hr hφ hmax hsc hbc a (ix2 p q) - broadcastTo ⟨2, ![M, N]⟩
    (log (shapeCast ⟨2, ![M, 1]⟩
      (multiReduction .add [1] ⟨1, ![M]⟩ (exp (bodyShift hr hφ hmax hsc hbc a)) 0x00000000#32 hr hφ hadd) hsc)) hbc (ix2 p q) = _
  rw [Cert.LibColumn.broadcastTo_a1_ab_apply]
  show bodyShift hr hφ hmax hsc hbc a (ix2 p q) - Ideal.log (shapeCast ⟨2, ![M, 1]⟩
      (multiReduction .add [1] ⟨1, ![M]⟩ (exp (bodyShift hr hφ hmax hsc hbc a)) 0x00000000#32 hr hφ hadd) hsc
        (ix2 p (0 : Fin 1))) = _
  rw [Cert.LibColumn.shapeCast_a_a1_apply, Cert.LibKeepdims.sum_last2_apply, bodyShift_apply]
  refine congrArg (fun s => (a (ix2 p q) - rowMax (fun j => a (ix2 p j))) - Ideal.log s)
    (Finset.sum_congr rfl fun k _ => ?_)
  exact congrArg Ideal.exp (bodyShift_apply hr hφ hmax hsc hbc a p k)

end Softmax

end Cert.LibRowNetBody

end
-- ==== Proof.MlpRow.lean ====
/-
  The network of this certificate on one input row.

  A row of 784 numbers passes through five dense layers (784 → 39 → 26 → 10 → 10 → 10), the weights read output-major, the
  second and the fourth layer with a bias; the logistic function stands between two layers; the last layer's ten numbers go
  through the log-softmax. Every entry of the result array, in both programs, is this function of one row of the input and
  of the seven parameter arrays: that is what the rest of the proof shows, once for each program.
-/
import proofs.«161194_j18442589569806_1_alg».proof.Proof.LibRowNet

noncomputable section

namespace Cert.MlpRow

open Cert.LibRowNet

/-- The ten numbers the last layer gives for one input row. -/
def logits (W0 : Fin 39 → Fin 784 → EReal) (W2 : Fin 26 → Fin 39 → EReal) (b2 : Fin 26 → EReal)
    (W4 : Fin 10 → Fin 26 → EReal) (W6 : Fin 10 → Fin 10 → EReal) (b6 : Fin 10 → EReal) (W8 : Fin 10 → Fin 10 → EReal)
    (x : Fin 784 → EReal) : Fin 10 → EReal :=
  dense W8 fun g4 => sigm (dense W6 (fun g3 => sigm (dense W4 (fun g2 => sigm (dense W2
    (fun g1 => sigm (dense W0 x g1)) g2 + b2 g2)) g3)) g4 + b6 g4)

/-- The whole network on one row. -/
def net (W0 : Fin 39 → Fin 784 → EReal) (W2 : Fin 26 → Fin 39 → EReal) (b2 : Fin 26 → EReal)
    (W4 : Fin 10 → Fin 26 → EReal) (W6 : Fin 10 → Fin 10 → EReal) (b6 : Fin 10 → EReal) (W8 : Fin 10 → Fin 10 → EReal)
    (x : Fin 784 → EReal) : Fin 10 → EReal :=
  logSoftmax (logits W0 W2 b2 W4 W6 b6 W8 x)

end Cert.MlpRow

end
-- ==== Proof.KernelBlock.lean ====
/-
  What the kernel body leaves in its output block, entry by entry.

  The body works on a block of 2048 rows of the input and on the seven parameter arrays whole. It is a composition of five
  dense layers with the logistic function between them and the log-softmax at the end, each in the form a body computes
  it. Written as that composition (`blockOut`) it is, word for word, the body's arithmetic as the generated skeleton
  names it — two payloads, the first ending inside the third logistic function, the second taking up from there — so
  the two are equal by unfolding alone. Read at the entry `(p, q)`, the composition is the network on row `p` of the
  block, at output `q`: a row of the result depends on the same row of the input and on nothing else of the block.
-/
import proofs.«161194_j18442589569806_1_alg».proof.Proof.Gen.KernelIdeal.Skeleton
import proofs.«161194_j18442589569806_1_alg».proof.Proof.LibRowNetBody
import proofs.«161194_j18442589569806_1_alg».proof.Proof.MlpRow

noncomputable section

namespace Cert.KernelIdeal.Block

open Idealize.ShloMosaic Idealize.ShloMosaic.ValueIdx Cert.KernelIdeal Cert.KernelIdeal.Gen Cert.LibRowNet
  Cert.LibRowNetBody Cert.MlpRow

/-- The body's result on one block of rows, as the composition of its layers. -/
def blockOut (x0 : FVec Ideal S2048x784 .f32) (w0 : FVec Ideal S39x784 .f32) (w2 : FVec Ideal S26x39 .f32)
    (b2 : FVec Ideal S1x26 .f32) (w4 : FVec Ideal S10x26 .f32) (w6 : FVec Ideal S10x10 .f32) (b6 : FVec Ideal S1x10 .f32)
    (w8 : FVec Ideal S10x10 .f32) : FVec Ideal S2048x10 .f32 :=
  bodyLogSoftmax reduces_S2048x10_S2048 (.inl rfl) rfl rfl shapeCasts_S2048_S2048x1 broadcasts_S2048x1_S2048x10
    (bodyDense dot_S2048x10_S10x10_S2048x10_1_0_0_1_n_n transposes_S10x10_p1_0_S10x10 bitsLt_bf16_f32
      (bodySigm (addf
        (bodyDense dot_S2048x10_S10x10_S2048x10_1_0_0_1_n_n transposes_S10x10_p1_0_S10x10 bitsLt_bf16_f32
          (bodySigm (bodyDense dot_S2048x26_S26x10_S2048x10_1_0_0_1_n_n transposes_S10x26_p1_0_S26x10 bitsLt_bf16_f32
            (bodySigm (addf
              (bodyDense dot_S2048x39_S39x26_S2048x26_1_0_0_1_n_n transposes_S26x39_p1_0_S39x26 bitsLt_bf16_f32
                (bodySigm (bodyDense dot_S2048x784_S784x39_S2048x39_1_0_0_1_n_n transposes_S39x784_p1_0_S784x39
                  bitsLt_bf16_f32 x0 w0))
                w2)
              (broadcastTo S2048x26 (shapeCast S1x26 b2 shapeCasts_S1x26_S1x26) broadcasts_S1x26_S2048x26)))
            w4))
          w6)
        (broadcastTo S2048x10 (shapeCast S1x10 b6 shapeCasts_S1x10_S1x10) broadcasts_S1x10_S2048x10)))
      w8)

/-- The body's arithmetic, as the skeleton names it, is that composition. -/
theorem pay_eq (x0 : FVec Ideal S2048x784 .f32) (w0 : FVec Ideal S39x784 .f32) (w2 : FVec Ideal S26x39 .f32)
    (b2 : FVec Ideal S1x26 .f32) (w4 : FVec Ideal S10x26 .f32) (w6 : FVec Ideal S10x10 .f32) (b6 : FVec Ideal S1x10 .f32)
    (w8 : FVec Ideal S10x10 .f32) :
    k0_pay1 (F := Ideal) (k0_pay2 (F := Ideal) x0 w0 w2 b2 w4) (k0_pay3 (F := Ideal)) w6 b6 w8
      = blockOut x0 w0 w2 b2 w4 w6 b6 w8 := rfl

/-- The block's entry `(p, q)` is the network on row `p` of the block, at output `q`. -/
theorem blockOut_apply (x0 : FVec Ideal S2048x784 .f32) (w0 : FVec Ideal S39x784 .f32) (w2 : FVec Ideal S26x39 .f32)
    (b2 : FVec Ideal S1x26 .f32) (w4 : FVec Ideal S10x26 .f32) (w6 : FVec Ideal S10x10 .f32) (b6 : FVec Ideal S1x10 .f32)
    (w8 : FVec Ideal S10x10 .f32) (p : Fin 2048) (q : Fin 10) :
    blockOut x0 w0 w2 b2 w4 w6 b6 w8 (ix2 p q)
      = net (fun g k => w0 (ix2 g k)) (fun g k => w2 (ix2 g k)) (fun g => b2 (ix2 (0 : Fin 1) g))
          (fun g k => w4 (ix2 g k)) (fun g k => w6 (ix2 g k)) (fun g => b6 (ix2 (0 : Fin 1) g))
          (fun g k => w8 (ix2 g k)) (fun k => x0 (ix2 p k)) q := by
  unfold blockOut net
  refine (bodyLogSoftmax_apply _ _ _ _ _ _ _ p q).trans ?_
  refine congrArg (fun a => logSoftmax a q) (funext fun j => ?_)
  unfold logits
  rw [bodyDense_apply dot_S2048x10_S10x10_S2048x10_1_0_0_1_n_n rfl rfl rfl rfl rfl rfl]
  refine congrArg (fun h => dense (fun g k => w8 (ix2 g k)) h j) (funext fun g4 => ?_)
  rw [bodySigm_apply, addf_rowBias_apply, bodyDense_apply dot_S2048x10_S10x10_S2048x10_1_0_0_1_n_n rfl rfl rfl rfl rfl rfl]
  refine congrArg (fun h => sigm (dense (fun g k => w6 (ix2 g k)) h g4 + b6 (ix2 (0 : Fin 1) g4))) (funext fun g3 => ?_)
  rw [bodySigm_apply, bodyDense_apply dot_S2048x26_S26x10_S2048x10_1_0_0_1_n_n rfl rfl rfl rfl rfl rfl]
  refine congrArg (fun h => sigm (dense (fun g k => w4 (ix2 g k)) h g3)) (funext fun g2 => ?_)
  rw [bodySigm_apply, addf_rowBias_apply, bodyDense_apply dot_S2048x39_S39x26_S2048x26_1_0_0_1_n_n rfl rfl rfl rfl rfl rfl]
  refine congrArg (fun h => sigm (dense (fun g k => w2 (ix2 g k)) h g2 + b2 (ix2 (0 : Fin 1) g2))) (funext fun g1 => ?_)
  rw [bodySigm_apply, bodyDense_apply dot_S2048x784_S784x39_S2048x39_1_0_0_1_n_n rfl rfl rfl rfl rfl rfl]

end Cert.KernelIdeal.Block

end
-- ==== Proof.KernelArray.lean ====
/-
  From the blocks to the array: the kernel's result as one function of its arguments.

  The grid has sixteen points. At point `t` the body sees rows `2048·t … 2048·t + 2047` of the input, every parameter array
  whole, and the two biases as the one-row arrays the program makes of them before the launch; it writes rows
  `2048·t … 2048·t + 2047` of the result. A row of the body's block is the network on the same row of its input block
  (the block module), so what point `t` writes back is block `t` of ONE array: the network applied to every row of the
  input. The sixteen blocks tile the result array — row `r` lies in the block of point `r / 2048` — so after the run the
  array is that function everywhere.

  Each input block is read where the output block's rows say: a block's coordinate is its index times its size plus the
  coordinate inside it; the input's block index on the row axis is the output's, every other block index is zero. A bias
  of `n` numbers cast to one row `[1, n]` holds the `g`-th number at `(0, g)`.
-/
import proofs.«161194_j18442589569806_1_alg».proof.Proof.Gen.KernelIdeal.Value
import proofs.«161194_j18442589569806_1_alg».proof.Proof.KernelBlock
import Idealize.ShloMosaic.Lib.StableHlo.Run

noncomputable section

namespace Cert.KernelIdeal.WholeArray

open Cert.KernelIdeal Cert.KernelIdeal.Gen Idealize.ShloMosaic Idealize.ShloMosaic.TcCoe Idealize.SL.Sem
  Idealize.ShloMosaic.ValueIdx Cert.LibRowNet Cert.MlpRow Cert.KernelIdeal.Block
open Idealize.ShloMosaic.Pipeline (Dat)

variable (m : (ℓ : Loc nD τ sig) → Buf (Elt Ideal) ℓ) (ρ : Dev nD → PrngReg)

/-! ## The function -/

/-- The network applied to every row of `a0`, the biases given as one-row arrays: entry `(r, q)` is the network on row
    `r`, at output `q`. -/
def rowsNet (a0 : S32768x784.Idx → EReal) (a1 : S39x784.Idx → EReal) (a2 : S26x39.Idx → EReal) (r3 : S1x26.Idx → EReal)
    (a4 : S10x26.Idx → EReal) (a5 : S10x10.Idx → EReal) (r6 : S1x10.Idx → EReal) (a7 : S10x10.Idx → EReal) :
    S32768x10.Idx → EReal := fun i =>
  net (fun g k => a1 (ix2 g k)) (fun g k => a2 (ix2 g k)) (fun g => r3 (ix2 (0 : Fin 1) g)) (fun g k => a4 (ix2 g k))
    (fun g k => a5 (ix2 g k)) (fun g => r6 (ix2 (0 : Fin 1) g)) (fun g k => a7 (ix2 g k))
    (fun k => a0 (ix2 (⟨(i 0).val, (i 0).isLt⟩ : Fin 32768) k)) (⟨(i 1).val, (i 1).isLt⟩ : Fin 10)

/-! ## The index maps over the grid -/

theorem hz : (![0, 0] : Fin 2 → Nat) = fun _ => 0 := funext fun a => by fin_cases a <;> rfl

/-- Decided over the sixteen points: the input's block index on the row axis is the output's and stays below sixteen;
    every other block index is zero. -/
theorem idx_facts : ∀ t : Fin cfg0.N, win0_0.index t (0 : Fin 2) = win0_8.index t (0 : Fin 2)
    ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) ≤ 15 ∧ win0_8.index t (1 : Fin 2) = 0 :=
  (by decide +kernel : ∀ t : Fin grid0.N, _)

/-- Every one of the sixteen row blocks is some point's. -/
theorem idx_onto : ∀ q0 : Fin 16, ∃ t : Fin cfg0.N, win0_8.index t = ![q0.val, 0] :=
  (by decide +kernel : ∀ q0 : Fin 16, ∃ t : Fin grid0.N, win0_8.index t = ![q0.val, 0])

/-! ## Where each block is read -/

/-- The output block's entry `(p, q)` is the array's entry `(2048·t + p, q)`. -/
theorem emb8 (t : Fin cfg0.N) (p : Fin 2048) (q : Fin 10) :
    ((((cfg0.win 8).blk t).view.emb (ix2 p q)) 0).val = win0_8.index t (0 : Fin 2) * 2048 + p.val
    ∧ ((((cfg0.win 8).blk t).view.emb (ix2 p q)) 1).val = q.val := by
  obtain ⟨-, -, -, -, -, -, -, -, -, -, -, -, -, -, -, -, -, e8⟩ := idx_facts t
  constructor
  · show win0_8.index t (0 : Fin 2) * 2048 + 1 * p.val = _
    omega
  · show win0_8.index t (1 : Fin 2) * 10 + 1 * q.val = _
    omega

/-- The input block's row `p` is the array's row `2048·t + p`: the row the output block's row `p` is. -/
theorem read0 (c : Dev nD) (t : Fin cfg0.N) (p : Fin 2048) (q : Fin 10) (k : Fin 784) :
    iblk m c 0 t (ix2 p k) = V m c main_arg0 (ix2 (⟨((((cfg0.win 8).blk t).view.emb (ix2 p q)) 0).val,
      ((((cfg0.win 8).blk t).view.emb (ix2 p q)) 0).isLt⟩ : Fin 32768) k) := by
  show V m c main_arg0 (((cfg0.win 0).blk t).view.emb (ix2 p k)) = _
  refine congrArg (V m c main_arg0) (funext fun a => Fin.ext ?_)
  obtain ⟨e0, e1, -⟩ := idx_facts t
  match a with
  | ⟨0, _⟩ =>
    show win0_0.index t (0 : Fin 2) * 2048 + 1 * p.val = win0_8.index t (0 : Fin 2) * 2048 + 1 * p.val
    omega
  | ⟨1, _⟩ =>
    show win0_0.index t (1 : Fin 2) * 784 + 1 * k.val = k.val
    omega

/-- A parameter array's block is the whole array: its block index is zero on both axes. -/
theorem read1 (c : Dev nD) (t : Fin cfg0.N) (g : Fin 39) (k : Fin 784) :
    iblk m c 1 t (ix2 g k) = V m c main_arg1 (ix2 g k) := by
  show V m c main_arg1 (((cfg0.win 1).blk t).view.emb (ix2 g k)) = _
  refine congrArg (V m c main_arg1) (funext fun a => Fin.ext ?_)
  have hf := idx_facts t
  match a with
  | ⟨0, _⟩ =>
    show win0_1.index t (0 : Fin 2) * 39 + 1 * (g).val = (g).val
    omega
  | ⟨1, _⟩ =>
    show win0_1.index t (1 : Fin 2) * 784 + 1 * k.val = k.val
    omega

theorem read2 (c : Dev nD) (t : Fin cfg0.N) (g : Fin 26) (k : Fin 39) :
    iblk m c 2 t (ix2 g k) = V m c main_arg2 (ix2 g k) := by
  show V m c main_arg2 (((cfg0.win 2).blk t).view.emb (ix2 g k)) = _
  refine congrArg (V m c main_arg2) (funext fun a => Fin.ext ?_)
  have hf := idx_facts t
  match a with
  | ⟨0, _⟩ =>
    show win0_2.index t (0 : Fin 2) * 26 + 1 * (g).val = (g).val
    omega
  | ⟨1, _⟩ =>
    show win0_2.index t (1 : Fin 2) * 39 + 1 * k.val = k.val
    omega

theorem read4 (c : Dev nD) (t : Fin cfg0.N) (g : Fin 10) (k : Fin 26) :
    iblk m c 4 t (ix2 g k) = V m c main_arg4 (ix2 g k) := by
  show V m c main_arg4 (((cfg0.win 4).blk t).view.emb (ix2 g k)) = _
  refine congrArg (V m c main_arg4) (funext fun a => Fin.ext ?_)
  have hf := idx_facts t
  match a with
  | ⟨0, _⟩ =>
    show win0_4.index t (0 : Fin 2) * 10 + 1 * (g).val = (g).val
    omega
  | ⟨1, _⟩ =>
    show win0_4.index t (1 : Fin 2) * 26 + 1 * k.val = k.val
    omega

theorem read5 (c : Dev nD) (t : Fin cfg0.N) (g : Fin 10) (k : Fin 10) :
    iblk m c 5 t (ix2 g k) = V m c main_arg5 (ix2 g k) := by
  show V m c main_arg5 (((cfg0.win 5).blk t).view.emb (ix2 g k)) = _
  refine congrArg (V m c main_arg5) (funext fun a => Fin.ext ?_)
  have hf := idx_facts t
  match a with
  | ⟨0, _⟩ =>
    show win0_5.index t (0 : Fin 2) * 10 + 1 * (g).val = (g).val
    omega
  | ⟨1, _⟩ =>
    show win0_5.index t (1 : Fin 2) * 10 + 1 * k.val = k.val
    omega

theorem read7 (c : Dev nD) (t : Fin cfg0.N) (g : Fin 10) (k : Fin 10) :
    iblk m c 7 t (ix2 g k) = V m c main_arg7 (ix2 g k) := by
  show V m c main_arg7 (((cfg0.win 7).blk t).view.emb (ix2 g k)) = _
  refine congrArg (V m c main_arg7) (funext fun a => Fin.ext ?_)
  have hf := idx_facts t
  match a with
  | ⟨0, _⟩ =>
    show win0_7.index t (0 : Fin 2) * 10 + 1 * (g).val = (g).val
    omega
  | ⟨1, _⟩ =>
    show win0_7.index t (1 : Fin 2) * 10 + 1 * k.val = k.val
    omega

/-- A bias's block is the whole one-row array the program made of it. -/
theorem read3 (c : Dev nD) (t : Fin cfg0.N) (k : Fin 26) :
    iblk m c 3 t (ix2 (0 : Fin 1) k) = V m c main_v0 (ix2 (0 : Fin 1) k) := by
  show V m c main_v0 (((cfg0.win 3).blk t).view.emb (ix2 (0 : Fin 1) k)) = _
  refine congrArg (V m c main_v0) (funext fun a => Fin.ext ?_)
  have hf := idx_facts t
  match a with
  | ⟨0, _⟩ =>
    show win0_3.index t (0 : Fin 2) * 1 + 1 * 0 = 0
    omega
  | ⟨1, _⟩ =>
    show win0_3.index t (1 : Fin 2) * 26 + 1 * k.val = k.val
    omega

theorem read6 (c : Dev nD) (t : Fin cfg0.N) (k : Fin 10) :
    iblk m c 6 t (ix2 (0 : Fin 1) k) = V m c main_v1 (ix2 (0 : Fin 1) k) := by
  show V m c main_v1 (((cfg0.win 6).blk t).view.emb (ix2 (0 : Fin 1) k)) = _
  refine congrArg (V m c main_v1) (funext fun a => Fin.ext ?_)
  have hf := idx_facts t
  match a with
  | ⟨0, _⟩ =>
    show win0_6.index t (0 : Fin 2) * 1 + 1 * 0 = 0
    omega
  | ⟨1, _⟩ =>
    show win0_6.index t (1 : Fin 2) * 10 + 1 * k.val = k.val
    omega

/-! ## What a point writes back, and the whole array -/

/-- What point `t` writes back is block `t` of the network applied to every row of the input. -/
theorem flushed_eq (c : Dev nD) (t : Fin cfg0.N) :
    (dats m 0 c).flushed 8 t = ((cfg0.win 8).blk t).view.read (Elt Ideal)
      (rowsNet (V m c main_arg0) (V m c main_arg1) (V m c main_arg2) (V m c main_v0) (V m c main_arg4) (V m c main_arg5)
        (V m c main_v1) (V m c main_arg7)) := by
  rw [Cert.KernelIdeal.Value.flushed8]
  unfold out0_8
  rw [View.canon_unit_zero hz]
  simp only [View.ld_unit_zero (S := S2048x784) hz, View.ld_unit_zero (S := S39x784) hz,
    View.ld_unit_zero (S := S26x39) hz, View.ld_unit_zero (S := S1x26) hz, View.ld_unit_zero (S := S10x26) hz,
    View.ld_unit_zero (S := S10x10) hz, View.ld_unit_zero (S := S1x10) hz]
  rw [pay_eq]
  funext y
  obtain ⟨p, q, rfl⟩ : ∃ (p : Fin 2048) (q : Fin 10), y = ix2 p q := ⟨y 0, y 1, eq_ix2 y⟩
  show blockOut (iblk m c 0 t) (iblk m c 1 t) (iblk m c 2 t) (iblk m c 3 t) (iblk m c 4 t) (iblk m c 5 t) (iblk m c 6 t)
      (iblk m c 7 t) (ix2 p q)
    = rowsNet (V m c main_arg0) (V m c main_arg1) (V m c main_arg2) (V m c main_v0) (V m c main_arg4) (V m c main_arg5)
        (V m c main_v1) (V m c main_arg7) (((cfg0.win 8).blk t).view.emb (ix2 p q))
  rw [blockOut_apply]
  unfold rowsNet
  have hq : (⟨((((cfg0.win 8).blk t).view.emb (ix2 p q)) 1).val, ((((cfg0.win 8).blk t).view.emb (ix2 p q)) 1).isLt⟩ : Fin 10)
      = q := Fin.ext (emb8 t p q).2
  simp only [read0 m c t p q, read1 m c t, read2 m c t, read3 m c t, read4 m c t, read5 m c t, read6 m c t,
    read7 m c t, hq]

/-- An index of the result array is in point `t`'s block iff each coordinate is in the block's range on its axis. -/
theorem mem_blk (t : Fin cfg0.N) (i : S32768x10.Idx) :
    i ∈ ((cfg0.win 8).blk t).view.set ↔ ∀ a : Fin 2, win0_8.index t a * S2048x10.size a ≤ (i a).val
      ∧ (i a).val < win0_8.index t a * S2048x10.size a + S2048x10.size a := by
  show i ∈ ((View.whole main_v2).slice (win0_8.rect t)).set ↔ _
  rw [View.set_slice_whole, Rect.mem_set_unit]
  exact Iff.rfl

/-- The sixteen blocks tile the array: row `r` lies in the block of the point whose row-block index is `r / 2048`. -/
theorem cover (i : S32768x10.Idx) :
    ∃ t : Fin cfg0.N, (cfg0.win 8).flush t = true ∧ i ∈ ((cfg0.win 8).blk t).view.set := by
  have hi0 : (i 0).val < 32768 := (i 0).isLt
  have hi1 : (i 1).val < 10 := (i 1).isLt
  obtain ⟨t, ht⟩ := idx_onto ⟨(i 0).val / 2048, by omega⟩
  have q0 : win0_8.index t (0 : Fin 2) = (i 0).val / 2048 := congrFun ht 0
  have q1 : win0_8.index t (1 : Fin 2) = 0 := congrFun ht 1
  refine ⟨t, flush0_8 t, ?_⟩
  rw [mem_blk]
  intro a
  match a with
  | ⟨0, _⟩ =>
    show win0_8.index t (0 : Fin 2) * 2048 ≤ (i 0).val ∧ (i 0).val < win0_8.index t (0 : Fin 2) * 2048 + 2048
    omega
  | ⟨1, _⟩ =>
    show win0_8.index t (1 : Fin 2) * 10 ≤ (i 1).val ∧ (i 1).val < win0_8.index t (1 : Fin 2) * 10 + 10
    omega

/-- After the run the result array is the network applied to every row of the input, as the region found its arrays. -/
theorem final (c : Dev nD) : (dats m 0 c).arrAt 8 cfg0.N
    = rowsNet (V m c main_arg0) (V m c main_arg1) (V m c main_arg2) (V m c main_v0) (V m c main_arg4) (V m c main_arg5)
        (V m c main_v1) (V m c main_arg7) :=
  (dats m 0 c).arrAt_eq_of_cover 8 _ (fun t _ => flushed_eq m c t) cover

/-! ## The arrays the region finds, and the run -/

/-- A vector of `n` numbers cast to one row `[1, n]` holds the `g`-th number at `(0, g)`. -/
theorem cast_row_apply {n : ℕ} (x : (⟨1, ![n]⟩ : Shape).Idx → EReal) (h : (⟨1, ![n]⟩ : Shape).ShapeCasts ⟨2, ![1, n]⟩)
    (g : Fin n) : shapeCast ⟨2, ![1, n]⟩ x h (ix2 (0 : Fin 1) g) = x (ix1 g) :=
  shapeCast_apply x h _ _ (by
    rw [Shape.rowMajor_val_one, Shape.rowMajor_val_two]
    show g.val = 0 * n + g.val
    omega)

/-- The first bias as the region finds it: the argument cast to one row. -/
theorem V_bias2 (c : Dev nD) :
    (V m c main_v0 : S1x26.Idx → EReal) = shapeCast S1x26 (m ((c : Thread nD τ).loc main_arg3)) shapeCasts_S26_S1x26 := by
  dsimp only [Gen.V, Gen.hostOps0]
  after_results
  rfl

/-- The second bias as the region finds it: the argument cast to one row. -/
theorem V_bias6 (c : Dev nD) :
    (V m c main_v1 : S1x10.Idx → EReal) = shapeCast S1x10 (m ((c : Thread nD τ).loc main_arg6)) shapeCasts_S10_S1x10 := by
  dsimp only [Gen.V, Gen.hostOps0]
  after_results
  rfl

/-- The kernel's result as one function of its eight arguments: entry `(r, q)` is the network on row `r` of the first,
    at output `q`. -/
def G (a0 : S32768x784.Idx → EReal) (a1 : S39x784.Idx → EReal) (a2 : S26x39.Idx → EReal) (a3 : S26.Idx → EReal)
    (a4 : S10x26.Idx → EReal) (a5 : S10x10.Idx → EReal) (a6 : S10.Idx → EReal) (a7 : S10x10.Idx → EReal) :
    S32768x10.Idx → EReal := fun i =>
  net (fun g k => a1 (ix2 g k)) (fun g k => a2 (ix2 g k)) (fun g => a3 (ix1 g)) (fun g k => a4 (ix2 g k))
    (fun g k => a5 (ix2 g k)) (fun g => a6 (ix1 g)) (fun g k => a7 (ix2 g k))
    (fun k => a0 (ix2 (⟨(i 0).val, (i 0).isLt⟩ : Fin 32768) k)) (⟨(i 1).val, (i 1).isLt⟩ : Fin 10)

/-- With the biases cast to one row, the rows' network is `G` of the biases themselves. -/
theorem rowsNet_cast (a0 : S32768x784.Idx → EReal) (a1 : S39x784.Idx → EReal) (a2 : S26x39.Idx → EReal)
    (a3 : S26.Idx → EReal) (a4 : S10x26.Idx → EReal) (a5 : S10x10.Idx → EReal) (a6 : S10.Idx → EReal)
    (a7 : S10x10.Idx → EReal) :
    rowsNet a0 a1 a2 (shapeCast S1x26 a3 shapeCasts_S26_S1x26) a4 a5 (shapeCast S1x10 a6 shapeCasts_S10_S1x10) a7
      = G a0 a1 a2 a3 a4 a5 a6 a7 := by
  funext i
  unfold rowsNet G
  simp only [cast_row_apply]

/-- After the run the result array is `G` of the arguments as launched. -/
theorem final_args (c : Dev nD) : (dats m 0 c).arrAt 8 cfg0.N
    = G (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) := by
  rw [final, V_main_arg0, V_main_arg1, V_main_arg2, V_main_arg4, V_main_arg5, V_main_arg7, V_bias2, V_bias6]
  exact rowsNet_cast _ _ _ _ _ _ _ _

/-- Every weakly fair execution of the kernel's program ends with the result array at `G` of the arguments, the
    arguments unchanged. -/
theorem run : θ_run defs (onTc (τ := τ) (main (F := Ideal))) ⟨m, fun _ => 0, ρ⟩ fun r => ∀ c : Dev nD,
      r.2.mem ((c : Thread nD τ).loc main_v2)
        = G (m ((c : Thread nD τ).loc main_arg0)) (m ((c : Thread nD τ).loc main_arg1)) (m ((c : Thread nD τ).loc main_arg2))
            (m ((c : Thread nD τ).loc main_arg3)) (m ((c : Thread nD τ).loc main_arg4)) (m ((c : Thread nD τ).loc main_arg5))
            (m ((c : Thread nD τ).loc main_arg6)) (m ((c : Thread nD τ).loc main_arg7))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (final_args m c), (h c).2⟩)
    (Cert.KernelIdeal.Value.run_blocks m ρ)

end Cert.KernelIdeal.WholeArray

end
-- ==== Proof.RefRows.lean ====
/-
  What the reference computes, entry by entry.

  The reference is a straight line of whole-array operations on all 32768 rows at once: a product with a transposed
  weight matrix, a bias spread over the rows where the layer has one, the logistic function spelt
  `1 / (1 + exp (-h))`, five times over (the last without the logistic function), then the log-softmax along the rows.
  Read at the entry `(p, g)`, each stage depends on row `p` of the stage before and on nothing else: a product's entry is
  the sum over the shared axis of row `p` against row `g` of the weights (the transpose only swaps the weights' two
  coordinates back), a spread bias gives its `g`-th number, and the rest is entry by entry. So the entry `(p, q)` of the
  result is the network on row `p` of the input, at output `q`.

  Two spellings are particular to this program. It negates with a negation (not `0 - h`), which is how the network's
  definition spells it. And its log-softmax takes the maximum of the finished row maximum with `-∞` once more: the row
  maximum is a fold of `max` that started from that same word, so this changes nothing.
-/
import proofs.«161194_j18442589569806_1_alg».proof.Proof.RefReadPatched
import proofs.«161194_j18442589569806_1_alg».proof.Proof.MlpRow
import proofs.«161194_j18442589569806_1_alg».proof.Proof.LibKeepdims
import Idealize.ShloMosaic.Lib.ValueIdx
import Idealize.ShloMosaic.PureOps.Reduce

noncomputable section

namespace Cert.ReferenceIdeal.Rows

open Idealize.ShloMosaic Idealize.ShloMosaic.ValueIdx Cert.ReferenceIdeal Cert.ReferenceIdeal.Gen
  Cert.ReferenceIdeal.ReadP Cert.LibRowNet Cert.MlpRow

variable (x0 : (⟨S32768x784, .f32⟩ : BufTy).Contents (Elt Ideal)) (x1 : (⟨S39x784, .f32⟩ : BufTy).Contents (Elt Ideal)) (x2 : (⟨S26x39, .f32⟩ : BufTy).Contents (Elt Ideal)) (x3 : (⟨S26, .f32⟩ : BufTy).Contents (Elt Ideal))
  (x4 : (⟨S10x26, .f32⟩ : BufTy).Contents (Elt Ideal)) (x5 : (⟨S10x10, .f32⟩ : BufTy).Contents (Elt Ideal)) (x6 : (⟨S10, .f32⟩ : BufTy).Contents (Elt Ideal)) (x7 : (⟨S10x10, .f32⟩ : BufTy).Contents (Elt Ideal))

/-! ## The five layers -/

/-- After the first layer and its logistic function. -/
theorem stage1 (p : Fin 32768) (g : Fin 39) :
    val_main_v7 (F := Ideal) x0 x1 (ix2 p g) = sigm (dense (fun g k => x1 (ix2 g k)) (fun k => x0 (ix2 p k)) g) := by
  rw [val_main_v7_apply, val_main_v6_apply, val_main_v5_apply, val_main_v4_apply]
  show sigm (val_main_v1 (F := Ideal) x0 x1 (ix2 p g)) = _
  rw [val_main_v1_apply]
  refine congrArg sigm (Finset.sum_congr rfl fun k _ => ?_)
  rw [val_main_v0_apply]
  exact congrArg₂ (· * ·) (congrArg x0 (funext fun a => Fin.ext (by match a with | ⟨0, _⟩ => rfl | ⟨1, _⟩ => rfl))) (congrArg x1 (funext fun a => Fin.ext (by match a with | ⟨0, _⟩ => rfl | ⟨1, _⟩ => rfl)))

/-- After the second layer, its bias and its logistic function, from the first stage's row. -/
theorem stage2 (p : Fin 32768) (g : Fin 26) :
    val_main_v18 (F := Ideal) x0 x1 x2 x3 (ix2 p g)
      = sigm (dense (fun g k => x2 (ix2 g k)) (fun k => val_main_v7 (F := Ideal) x0 x1 (ix2 p k)) g + x3 (ix1 g)) := by
  rw [val_main_v18_apply, val_main_v17_apply, val_main_v16_apply, val_main_v15_apply]
  show sigm (val_main_v12 (F := Ideal) x0 x1 x2 x3 (ix2 p g)) = _
  rw [val_main_v12_apply, val_main_v11_apply, val_main_v10_apply, val_main_v9_apply]
  refine congrArg sigm (congrArg₂ (· + ·) (Finset.sum_congr rfl fun k _ => ?_) (congrArg x3 (funext fun a => Fin.ext (by match a with | ⟨0, _⟩ => rfl))))
  rw [val_main_v8_apply]
  exact congrArg₂ (· * ·) (congrArg (val_main_v7 (F := Ideal) x0 x1) (funext fun a => Fin.ext (by match a with | ⟨0, _⟩ => rfl | ⟨1, _⟩ => rfl))) (congrArg x2 (funext fun a => Fin.ext (by match a with | ⟨0, _⟩ => rfl | ⟨1, _⟩ => rfl)))

/-- After the third layer and its logistic function, from the second stage's row. -/
theorem stage3 (p : Fin 32768) (g : Fin 10) :
    val_main_v26 (F := Ideal) x0 x1 x2 x3 x4 (ix2 p g)
      = sigm (dense (fun g k => x4 (ix2 g k)) (fun k => val_main_v18 (F := Ideal) x0 x1 x2 x3 (ix2 p k)) g) := by
  rw [val_main_v26_apply, val_main_v25_apply, val_main_v24_apply, val_main_v23_apply]
  show sigm (val_main_v20 (F := Ideal) x0 x1 x2 x3 x4 (ix2 p g)) = _
  rw [val_main_v20_apply]
  refine congrArg sigm (Finset.sum_congr rfl fun k _ => ?_)
  rw [val_main_v19_apply]
  exact congrArg₂ (· * ·) (congrArg (val_main_v18 (F := Ideal) x0 x1 x2 x3) (funext fun a => Fin.ext (by match a with | ⟨0, _⟩ => rfl | ⟨1, _⟩ => rfl))) (congrArg x4 (funext fun a => Fin.ext (by match a with | ⟨0, _⟩ => rfl | ⟨1, _⟩ => rfl)))

/-- After the fourth layer, its bias and its logistic function, from the third stage's row. -/
theorem stage4 (p : Fin 32768) (g : Fin 10) :
    val_main_v37 (F := Ideal) x0 x1 x2 x3 x4 x5 x6 (ix2 p g)
      = sigm (dense (fun g k => x5 (ix2 g k)) (fun k => val_main_v26 (F := Ideal) x0 x1 x2 x3 x4 (ix2 p k)) g
          + x6 (ix1 g)) := by
  rw [val_main_v37_apply, val_main_v36_apply, val_main_v35_apply, val_main_v34_apply]
  show sigm (val_main_v31 (F := Ideal) x0 x1 x2 x3 x4 x5 x6 (ix2 p g)) = _
  rw [val_main_v31_apply, val_main_v30_apply, val_main_v29_apply, val_main_v28_apply]
  refine congrArg sigm (congrArg₂ (· + ·) (Finset.sum_congr rfl fun k _ => ?_) (congrArg x6 (funext fun a => Fin.ext (by match a with | ⟨0, _⟩ => rfl))))
  rw [val_main_v27_apply]
  exact congrArg₂ (· * ·) (congrArg (val_main_v26 (F := Ideal) x0 x1 x2 x3 x4) (funext fun a => Fin.ext (by match a with | ⟨0, _⟩ => rfl | ⟨1, _⟩ => rfl))) (congrArg x5 (funext fun a => Fin.ext (by match a with | ⟨0, _⟩ => rfl | ⟨1, _⟩ => rfl)))

/-- The fifth layer, from the fourth stage's row. -/
theorem stage5 (p : Fin 32768) (g : Fin 10) :
    val_main_v39 (F := Ideal) x0 x1 x2 x3 x4 x5 x6 x7 (ix2 p g)
      = dense (fun g k => x7 (ix2 g k)) (fun k => val_main_v37 (F := Ideal) x0 x1 x2 x3 x4 x5 x6 (ix2 p k)) g := by
  rw [val_main_v39_apply]
  refine Finset.sum_congr rfl fun k _ => ?_
  rw [val_main_v38_apply]
  exact congrArg₂ (· * ·) (congrArg (val_main_v37 (F := Ideal) x0 x1 x2 x3 x4 x5 x6) (funext fun a => Fin.ext (by match a with | ⟨0, _⟩ => rfl | ⟨1, _⟩ => rfl))) (congrArg x7 (funext fun a => Fin.ext (by match a with | ⟨0, _⟩ => rfl | ⟨1, _⟩ => rfl)))

/-- The last layer's ten numbers on row `p` are the network's. -/
theorem logits_eq (p : Fin 32768) (j : Fin 10) :
    val_main_v39 (F := Ideal) x0 x1 x2 x3 x4 x5 x6 x7 (ix2 p j)
      = logits (fun g k => x1 (ix2 g k)) (fun g k => x2 (ix2 g k)) (fun g => x3 (ix1 g)) (fun g k => x4 (ix2 g k))
          (fun g k => x5 (ix2 g k)) (fun g => x6 (ix1 g)) (fun g k => x7 (ix2 g k)) (fun k => x0 (ix2 p k)) j := by
  unfold logits
  rw [stage5]
  refine congrArg (fun h => dense (fun g k => x7 (ix2 g k)) h j) (funext fun g4 => ?_)
  rw [stage4]
  refine congrArg (fun h => sigm (dense (fun g k => x5 (ix2 g k)) h g4 + x6 (ix1 g4))) (funext fun g3 => ?_)
  rw [stage3]
  refine congrArg (fun h => sigm (dense (fun g k => x4 (ix2 g k)) h g3)) (funext fun g2 => ?_)
  rw [stage2]
  refine congrArg (fun h => sigm (dense (fun g k => x2 (ix2 g k)) h g2 + x3 (ix1 g2))) (funext fun g1 => ?_)
  rw [stage1]

/-! ## The log-softmax -/

/-- The row maximum the reference subtracts: the fold of `max` from `-∞` over the row, taken with `-∞` once more. -/
theorem rowmax_eq (p : Fin 32768) :
    val_main_call0_v2 (F := Ideal) x0 x1 x2 x3 x4 x5 x6 x7 (ix1 p)
      = rowMax (fun j => val_main_v39 (F := Ideal) x0 x1 x2 x3 x4 x5 x6 x7 (ix2 p j)) := by
  have hred : S32768x10.Reduces [1] S32768 := by decide
  rw [val_main_call0_v2_apply, val_main_call0_v1_apply]
  show max negInf (val_main_call0_v0 (F := Ideal) x0 x1 x2 x3 x4 x5 x6 x7 (ix1 p)) = _
  have hfold : val_main_call0_v0 (F := Ideal) x0 x1 x2 x3 x4 x5 x6 x7 (ix1 p)
      = rowMax (fun j => val_main_v39 (F := Ideal) x0 x1 x2 x3 x4 x5 x6 x7 (ix2 p j)) := by
    unfold val_main_call0_v0
    refine (Host.reduce_eq_fold_single FloatOps.maximumf _ _ reducesTo_S32768x10_S32768_d1 hred h_S_ (ix1 p)).trans ?_
    have hf : (val_main_v39 (F := Ideal) x0 x1 x2 x3 x4 x5 x6 x7 ∘ hred.lift (ix1 p))
        = fun k : Fin 10 => val_main_v39 (F := Ideal) x0 x1 x2 x3 x4 x5 x6 x7 (ix2 p k) :=
      funext fun k => congrArg (val_main_v39 (F := Ideal) x0 x1 x2 x3 x4 x5 x6 x7) (Cert.LibKeepdims.lift_last2 hred p k)
    exact congrArg (fun f => Finset.fold max negInf f (Finset.univ : Finset (Fin 10))) hf
  rw [hfold]
  exact max_start_fold negInf _

/-- A row of the last layer less its maximum. -/
theorem shift_eq (p : Fin 32768) (q : Fin 10) :
    val_main_call0_v5 (F := Ideal) x0 x1 x2 x3 x4 x5 x6 x7 (ix2 p q)
      = val_main_v39 (F := Ideal) x0 x1 x2 x3 x4 x5 x6 x7 (ix2 p q)
          - rowMax (fun j => val_main_v39 (F := Ideal) x0 x1 x2 x3 x4 x5 x6 x7 (ix2 p j)) := by
  rw [val_main_call0_v5_apply, val_main_call0_v4_apply, val_main_call0_v3_apply]
  refine congrArg (fun m => val_main_v39 (F := Ideal) x0 x1 x2 x3 x4 x5 x6 x7 (ix2 p q) - m) ?_
  refine (congrArg (val_main_call0_v2 (F := Ideal) x0 x1 x2 x3 x4 x5 x6 x7) ?_).trans (rowmax_eq x0 x1 x2 x3 x4 x5 x6 x7 p)
  exact (funext fun a => Fin.ext (by match a with | ⟨0, _⟩ => rfl))

/-- The result's entry `(p, q)` is the log-softmax of the last layer's row `p`, at `q`. -/
theorem softmax_eq (p : Fin 32768) (q : Fin 10) :
    val_main_v40 (F := Ideal) x0 x1 x2 x3 x4 x5 x6 x7 (ix2 p q)
      = logSoftmax (fun j => val_main_v39 (F := Ideal) x0 x1 x2 x3 x4 x5 x6 x7 (ix2 p j)) q := by
  rw [val_main_v40_apply, val_main_call0_v10_apply, val_main_call0_v9_apply, val_main_call0_v8_apply,
    val_main_call0_v7_apply, shift_eq]
  show (_ - _) - Ideal.log (Ideal.ofBits .f32 0x00000000#32 + _) = _
  rw [zero_word_add]
  refine congrArg (fun s => (val_main_v39 (F := Ideal) x0 x1 x2 x3 x4 x5 x6 x7 (ix2 p q)
    - rowMax (fun j => val_main_v39 (F := Ideal) x0 x1 x2 x3 x4 x5 x6 x7 (ix2 p j))) - Ideal.log s)
    (Finset.sum_congr rfl fun k _ => ?_)
  rw [val_main_call0_v6_apply]
  refine congrArg Ideal.exp ((congrArg (val_main_call0_v5 (F := Ideal) x0 x1 x2 x3 x4 x5 x6 x7) ?_).trans
    (shift_eq x0 x1 x2 x3 x4 x5 x6 x7 p k))
  exact (funext fun a => Fin.ext (by match a with | ⟨0, _⟩ => rfl | ⟨1, _⟩ => rfl))

/-! ## The whole reference at an entry -/

/-- The reference's result at `(p, q)` is the network on row `p` of its first argument, at output `q`. -/
theorem entry_eq (p : Fin 32768) (q : Fin 10) :
    val_main_v40 (F := Ideal) x0 x1 x2 x3 x4 x5 x6 x7 (ix2 p q)
      = net (fun g k => x1 (ix2 g k)) (fun g k => x2 (ix2 g k)) (fun g => x3 (ix1 g)) (fun g k => x4 (ix2 g k))
          (fun g k => x5 (ix2 g k)) (fun g => x6 (ix1 g)) (fun g k => x7 (ix2 g k)) (fun k => x0 (ix2 p k)) q :=
  (softmax_eq x0 x1 x2 x3 x4 x5 x6 x7 p q).trans
    (congrArg (fun a => logSoftmax a q) (funext (logits_eq x0 x1 x2 x3 x4 x5 x6 x7 p)))

end Cert.ReferenceIdeal.Rows

end
-- ==== Proof.lean ====
/-
  A kernel for a five-layer perceptron with a log-softmax output, against its plain reference.

  Both programs take an input of 32768 rows of 784 numbers and seven parameter arrays (five weight matrices stored
  output-major, two biases) and return, for every row, the log-softmax of the last of five dense layers
  784 → 39 → 26 → 10 → 10 → 10, the logistic function standing between two layers, the second and the fourth layer with a
  bias. Read on the extended reals, every entry `(r, q)` of either result is one function — the network on row `r` of the
  input, at output `q` (MlpRow.lean) — and the two programs differ only in how they reach it:

  * the kernel works on sixteen blocks of 2048 rows, cuts the operands of each product to a shorter float format (nothing,
    on the extended reals), transposes each weight matrix inside its body, negates as `0 - h`, and takes its row maximum
    and row sum as reductions from `-∞` and from `0`: KernelBlock.lean reads one block, KernelArray.lean puts the
    sixteen blocks together into one function `G` of the arguments;
  * the reference does the same whole arrays at a time, negates with a negation, and takes the maximum of its row maximum
    with `-∞` once more: RefRows.lean reads its result at an entry.

  The laws that join the two are `0 - v = -v` on the extended reals and `max b (fold of max from b) = the fold`
  (LibRowNet.lean); neither needs a number to be finite, so the precondition is never opened. No rewrite separates the
  kernel from its idealization (the ledger is empty), and the three frames are the generated ones — the reference's being
  its run with the result dropped.
-/
import proofs.«161194_j18442589569806_1_alg».proof.Defs
import proofs.«161194_j18442589569806_1_alg».proof.Proof.Gen.Kernel
import proofs.«161194_j18442589569806_1_alg».proof.Proof.Gen.Kernel.Skeleton
import proofs.«161194_j18442589569806_1_alg».proof.Proof.Gen.Kernel.Launch
import proofs.«161194_j18442589569806_1_alg».proof.Proof.Gen.Kernel.Points
import proofs.«161194_j18442589569806_1_alg».proof.Proof.Gen.Kernel.Frame
import proofs.«161194_j18442589569806_1_alg».proof.Proof.Gen.KernelIdeal
import proofs.«161194_j18442589569806_1_alg».proof.Proof.Gen.KernelIdeal.Skeleton
import proofs.«161194_j18442589569806_1_alg».proof.Proof.Gen.KernelIdeal.Launch
import proofs.«161194_j18442589569806_1_alg».proof.Proof.Gen.KernelIdeal.Points
import proofs.«161194_j18442589569806_1_alg».proof.Proof.Gen.KernelIdeal.Frame
import proofs.«161194_j18442589569806_1_alg».proof.Proof.Gen.ReferenceIdeal
import proofs.«161194_j18442589569806_1_alg».proof.Proof.Gen.Pre_finite_inputs
import proofs.«161194_j18442589569806_1_alg».proof.Proof.Gen.KernelIdeal.Value
import proofs.«161194_j18442589569806_1_alg».proof.Proof.RefRunPatched
import proofs.«161194_j18442589569806_1_alg».proof.Proof.RefReadPatched
import proofs.«161194_j18442589569806_1_alg».proof.Proof.KernelArray
import proofs.«161194_j18442589569806_1_alg».proof.Proof.RefRows
import Idealize.ShloMosaic.Adequacy
import Idealize.ShloMosaic.Init

noncomputable section

namespace Cert.Proof

open Idealize.ShloMosaic Idealize.ShloMosaic.TcCoe Idealize.ShloMosaic.ValueIdx Idealize.SL.Sem

/-! ## The frames and the idealization -/

theorem frame_k : Cert.frame_Kernel := fun m ρ _ => Cert.Kernel.Gen.frame m ρ

theorem frame_ki : Cert.frame_KernelIdeal := fun m ρ _ => Cert.KernelIdeal.Gen.frame m ρ

/-- The reference launches no kernel: its frame is its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The idealization rewrote nothing. -/
theorem preserves : Cert.preserves_Kernel_KernelIdeal := trivial

/-! ## The two results are one function of the arguments -/

/-- The reference's result term is the kernel's function `G` of the same arguments: entry by entry both are the
    network on one row of the input. -/
theorem ref_is_G (m' : (ℓ : Loc Cert.ReferenceIdeal.nD Cert.ReferenceIdeal.τ Cert.ReferenceIdeal.sig) → Buf (Elt Ideal) ℓ)
    (c : Dev Cert.ReferenceIdeal.nD) :
    Cert.ReferenceIdeal.ValueP.res_main_v40 (F := Ideal) m' c
      = Cert.KernelIdeal.WholeArray.G
        (m' ((c.tc : Thread Cert.ReferenceIdeal.nD Cert.ReferenceIdeal.τ).loc Cert.ReferenceIdeal.main_arg0))
        (m' ((c.tc : Thread Cert.ReferenceIdeal.nD Cert.ReferenceIdeal.τ).loc Cert.ReferenceIdeal.main_arg1))
        (m' ((c.tc : Thread Cert.ReferenceIdeal.nD Cert.ReferenceIdeal.τ).loc Cert.ReferenceIdeal.main_arg2))
        (m' ((c.tc : Thread Cert.ReferenceIdeal.nD Cert.ReferenceIdeal.τ).loc Cert.ReferenceIdeal.main_arg3))
        (m' ((c.tc : Thread Cert.ReferenceIdeal.nD Cert.ReferenceIdeal.τ).loc Cert.ReferenceIdeal.main_arg4))
        (m' ((c.tc : Thread Cert.ReferenceIdeal.nD Cert.ReferenceIdeal.τ).loc Cert.ReferenceIdeal.main_arg5))
        (m' ((c.tc : Thread Cert.ReferenceIdeal.nD Cert.ReferenceIdeal.τ).loc Cert.ReferenceIdeal.main_arg6))
        (m' ((c.tc : Thread Cert.ReferenceIdeal.nD Cert.ReferenceIdeal.τ).loc Cert.ReferenceIdeal.main_arg7)) := by
  rw [Cert.ReferenceIdeal.ReadP.val_main_v40_eq]
  funext i
  obtain ⟨p, q, rfl⟩ : ∃ (p : Fin 32768) (q : Fin 10), i = ix2 p q := ⟨i 0, i 1, eq_ix2 i⟩
  exact Cert.ReferenceIdeal.Rows.entry_eq _ _ _ _ _ _ _ _ p q

/-- From memories that agree on the arguments both programs end with the result array at `G` of the arguments. -/
theorem algebraic : Cert.algebraic_KernelIdeal_ReferenceIdeal := by
  intro m ρ m' ρ' _ hagree
  refine ⟨_, Cert.KernelIdeal.WholeArray.run m ρ, ?_⟩
  refine (θ_run Cert.ReferenceIdeal.defs _ _).mono (fun _ h c => ⟨(h c).1.trans ?_, (h c).2⟩)
    (Cert.ReferenceIdeal.ValueP.run (F := Ideal) m' ρ')
  obtain ⟨h0, h1, h2, h3, h4, h5, h6, h7⟩ := hagree c
  rw [ref_is_G, h0, h1, h2, h3, h4, h5, h6, h7]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
